-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S2000x128 : Shape := ⟨2, ![2000, 128]⟩
abbrev S2000x1 : Shape := ⟨2, ![2000, 1]⟩
abbrev S700000x128 : Shape := ⟨2, ![700000, 128]⟩
abbrev S1x128 : Shape := ⟨2, ![1, 128]⟩

abbrev nBuf : Space → Nat
  | .hbm => 105
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S700000, .i32⟩
  | .hbm, ⟨12, _⟩ => ⟨S1x600000, .i32⟩
  | .hbm, ⟨13, _⟩ => ⟨S600000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .i32⟩
  | .hbm, ⟨45, _⟩ => ⟨S_, .i32⟩
  | .hbm, ⟨46, _⟩ => ⟨S700000, .i32⟩
  | .hbm, ⟨47, _⟩ => ⟨S700000, .i1⟩
  | .hbm, ⟨48, _⟩ => ⟨S_, .i32⟩
  | .hbm, ⟨49, _⟩ => ⟨S700000, .i32⟩
  | .hbm, ⟨50, _⟩ => ⟨S700000, .i32⟩
  | .hbm, ⟨51, _⟩ => ⟨S700000, .i32⟩
  | .hbm, ⟨52, _⟩ => ⟨S700000x1, .i32⟩
  | .hbm, ⟨53, _⟩ => ⟨S700000, .i32⟩
  | .hbm, ⟨54, _⟩ => ⟨S100000x128, .bf16⟩
  | .hbm, ⟨55, _⟩ => ⟨S_, .i32⟩
  | .hbm, ⟨56, _⟩ => ⟨S700000, .i32⟩
  | .hbm, ⟨57, _⟩ => ⟨S700000, .i1⟩
  | .hbm, ⟨58, _⟩ => ⟨S_, .i32⟩
  | .hbm, ⟨59, _⟩ => ⟨S700000, .i32⟩
  | .hbm, ⟨60, _⟩ => ⟨S700000, .i32⟩
  | .hbm, ⟨61, _⟩ => ⟨S700000, .i32⟩
  | .hbm, ⟨62, _⟩ => ⟨S700000x1, .i32⟩
  | .hbm, ⟨63, _⟩ => ⟨S700000x128, .bf16⟩
  | .hbm, ⟨64, _⟩ => ⟨S700000x128, .f32⟩
  | .hbm, ⟨65, _⟩ => ⟨S_, .f32⟩
  | .hbm, ⟨66, _⟩ => ⟨S100000x128, .f32⟩
  | .hbm, ⟨67, _⟩ => ⟨S700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .bf16⟩
  | .hbm, ⟨72, _⟩ => ⟨S_, .i32⟩
  | .hbm, ⟨73, _⟩ => ⟨S700000, .i32⟩
  | .hbm, ⟨74, _⟩ => ⟨S700000, .i1⟩
  | .hbm, ⟨75, _⟩ => ⟨S_, .i32⟩
  | .hbm, ⟨76, _⟩ => ⟨S700000, .i32⟩
  | .hbm, ⟨77, _⟩ => ⟨S700000, .i32⟩
  | .hbm, ⟨78, _⟩ => ⟨S700000, .i32⟩
  | .hbm, ⟨79, _⟩ => ⟨S700000x1, .i32⟩
  | .hbm, ⟨80, _⟩ => ⟨S700000x128, .bf16⟩
  | .hbm, ⟨81, _⟩ => ⟨S700000x128, .f32⟩
  | .hbm, ⟨82, _⟩ => ⟨S_, .f32⟩
  | .hbm, ⟨83, _⟩ => ⟨S100000x128, .f32⟩
  | .hbm, ⟨84, _⟩ => ⟨S700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .bf16⟩
  | .hbm, ⟨89, _⟩ => ⟨S_, .i32⟩
  | .hbm, ⟨90, _⟩ => ⟨S700000, .i32⟩
  | .hbm, ⟨91, _⟩ => ⟨S700000, .i1⟩
  | .hbm, ⟨92, _⟩ => ⟨S_, .i32⟩
  | .hbm, ⟨93, _⟩ => ⟨S700000, .i32⟩
  | .hbm, ⟨94, _⟩ => ⟨S700000, .i32⟩
  | .hbm, ⟨95, _⟩ => ⟨S700000, .i32⟩
  | .hbm, ⟨96, _⟩ => ⟨S700000x1, .i32⟩
  | .hbm, ⟨97, _⟩ => ⟨S700000x128, .bf16⟩
  | .hbm, ⟨98, _⟩ => ⟨S700000x128, .f32⟩
  | .hbm, ⟨99, _⟩ => ⟨S_, .f32⟩
  | .hbm, ⟨100, _⟩ => ⟨S100000x128, .f32⟩
  | .hbm, ⟨101, _⟩ => ⟨S700000x1, .i32⟩
  | .hbm, ⟨102, _⟩ => ⟨S100000x128, .f32⟩
  | .hbm, ⟨103, _⟩ => ⟨S1x128, .f32⟩
  | .hbm, ⟨104, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x1, .f32⟩
  | .local _ .vmem, ⟨32, _⟩ => ⟨S2000x1, .f32⟩
  | .local _ .vmem, ⟨33, _⟩ => ⟨S2000x128, .bf16⟩
  | .local _ .vmem, ⟨34, _⟩ => ⟨S2000x128, .bf16⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1_0 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S700000x1_S700000_n_0_0_1_wf : ScatterDims.WF S100000 S700000x1 S700000 [] [0] [0] 1
  gather_S700000_S700000x1_S700000_n_0_n_n_0_1_1_wf : GatherDims.WF S700000 S700000x1 S700000 [] [0] [] [0] [] 1 ![1]
  dot_S2000x128_S128x128_S2000x128_1_0_0_1_n_n_wf : DotDims.WF S2000x128 S128x128 S2000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .bf16 = 32 ∨ (Rect.block (s := S100000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .bf16 = 32 ∨ (Rect.block (s := S100000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def comparator_i32_i32_d0 : BitVec 32 × BitVec 32 → BitVec 32 × BitVec 32 → BitVec 1 :=
  fun l r =>
    let v2 := IntOp.cmpi .slt l.1 r.1
    v2
def gather_S700000_S700000x1_S700000_n_0_n_n_0_1_1 : GatherDims S700000 S700000x1 S700000 where
  offsetDims := []
  collapsedSliceDims := [0]
  operandBatchingDims := []
  startIndicesBatchingDims := []
  startIndexMap := [0]
  indexVectorDim := 1
  sliceSizes := ![1]
  wf := gather_S700000_S700000x1_S700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S100000, .i32⟩
  | 9 => ⟨S1x600000, .i32⟩
  | 10 => ⟨S600000, .i32⟩
  | 11 => ⟨S700000, .i32⟩
  | 12 => ⟨S1x600000, .i32⟩
  | 13 => ⟨S600000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x128, .f32⟩
  | 33 => ⟨S_, .i32⟩
  | 34 => ⟨S700000, .i32⟩
  | 35 => ⟨S700000, .i1⟩
  | 36 => ⟨S_, .i32⟩
  | 37 => ⟨S700000, .i32⟩
  | 38 => ⟨S700000, .i32⟩
  | 39 => ⟨S700000, .i32⟩
  | 40 => ⟨S700000x1, .i32⟩
  | 41 => ⟨S700000, .f32⟩
  | 42 => ⟨S_, .i32⟩
  | 43 => ⟨S700000, .i32⟩
  | 44 => ⟨S700000, .i1⟩
  | 45 => ⟨S_, .i32⟩
  | 46 => ⟨S700000, .i32⟩
  | 47 => ⟨S700000, .i32⟩
  | 48 => ⟨S700000, .i32⟩
  | 49 => ⟨S700000x1, .i32⟩
  | 50 => ⟨S700000, .f32⟩
  | 51 => ⟨S700000, .f32⟩
  | 52 => ⟨S_, .i32⟩
  | 53 => ⟨S700000, .i32⟩
  | 54 => ⟨S700000, .i1⟩
  | 55 => ⟨S_, .i32⟩
  | 56 => ⟨S700000, .i32⟩
  | 57 => ⟨S700000, .i32⟩
  | 58 => ⟨S700000, .i32⟩
  | 59 => ⟨S700000x1, .i32⟩
  | 60 => ⟨S700000x128, .f32⟩
  | 61 => ⟨S700000x1, .f32⟩
  | 62 => ⟨S700000x128, .f32⟩
  | 63 => ⟨S700000x128, .f32⟩
  | 64 => ⟨S_, .f32⟩
  | 65 => ⟨S100000x128, .f32⟩
  | 66 => ⟨S700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S700000, .i32⟩
  | 77 => ⟨S700000, .i1⟩
  | 78 => ⟨S_, .i32⟩
  | 79 => ⟨S700000, .i32⟩
  | 80 => ⟨S700000, .i32⟩
  | 81 => ⟨S700000, .i32⟩
  | 82 => ⟨S700000x1, .i32⟩
  | 83 => ⟨S700000, .f32⟩
  | 84 => ⟨S_, .i32⟩
  | 85 => ⟨S700000, .i32⟩
  | 86 => ⟨S700000, .i1⟩
  | 87 => ⟨S_, .i32⟩
  | 88 => ⟨S700000, .i32⟩
  | 89 => ⟨S700000, .i32⟩
  | 90 => ⟨S700000, .i32⟩
  | 91 => ⟨S700000x1, .i32⟩
  | 92 => ⟨S700000, .f32⟩
  | 93 => ⟨S700000, .f32⟩
  | 94 => ⟨S_, .i32⟩
  | 95 => ⟨S700000, .i32⟩
  | 96 => ⟨S700000, .i1⟩
  | 97 => ⟨S_, .i32⟩
  | 98 => ⟨S700000, .i32⟩
  | 99 => ⟨S700000, .i32⟩
  | 100 => ⟨S700000, .i32⟩
  | 101 => ⟨S700000x1, .i32⟩
  | 102 => ⟨S700000x128, .f32⟩
  | 103 => ⟨S700000x1, .f32⟩
  | 104 => ⟨S700000x128, .f32⟩
  | 105 => ⟨S700000x128, .f32⟩
  | 106 => ⟨S_, .f32⟩
  | 107 => ⟨S100000x128, .f32⟩
  | 108 => ⟨S700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S700000, .i32⟩
  | 119 => ⟨S700000, .i1⟩
  | 120 => ⟨S_, .i32⟩
  | 121 => ⟨S700000, .i32⟩
  | 122 => ⟨S700000, .i32⟩
  | 123 => ⟨S700000, .i32⟩
  | 124 => ⟨S700000x1, .i32⟩
  | 125 => ⟨S700000, .f32⟩
  | 126 => ⟨S_, .i32⟩
  | 127 => ⟨S700000, .i32⟩
  | _ => ⟨S100000x128, .f32⟩

abbrev hbmTy0_1 (i : Nat) : BufTy := match i % 128 with
  | 0 => ⟨S700000, .i1⟩
  | 1 => ⟨S_, .i32⟩
  | 2 => ⟨S700000, .i32⟩
  | 3 => ⟨S700000, .i32⟩
  | 4 => ⟨S700000, .i32⟩
  | 5 => ⟨S700000x1, .i32⟩
  | 6 => ⟨S700000, .f32⟩
  | 7 => ⟨S700000, .f32⟩
  | 8 => ⟨S_, .i32⟩
  | 9 => ⟨S700000, .i32⟩
  | 10 => ⟨S700000, .i1⟩
  | 11 => ⟨S_, .i32⟩
  | 12 => ⟨S700000, .i32⟩
  | 13 => ⟨S700000, .i32⟩
  | 14 => ⟨S700000, .i32⟩
  | 15 => ⟨S700000x1, .i32⟩
  | 16 => ⟨S700000x128, .f32⟩
  | 17 => ⟨S700000x1, .f32⟩
  | 18 => ⟨S700000x128, .f32⟩
  | 19 => ⟨S700000x128, .f32⟩
  | 20 => ⟨S_, .f32⟩
  | 21 => ⟨S100000x128, .f32⟩
  | 22 => ⟨S700000x1, .i32⟩
  | 23 => ⟨S100000x128, .f32⟩
  | 24 => ⟨S1x128, .f32⟩
  | 25 => ⟨S100000x128, .f32⟩
  | 26 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  dot_S100000x128_S128x128_S100000x128_1_0_0_1_n_n_wf : DotDims.WF S100000x128 S128x128 S100000x128 [1] [0] [0] [1] [] []
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KRun.lean ====
/-
  The kernel program's run with EVERY buffer named. The program is fourteen segments — eight stretches of host
  operations and six pallas_calls — and the contents of the TensorCore's buffers at each segment boundary are a
  fold from the launch memory (`Gen.W0` … `Gen.W14`). The frame certificate reads only the eight argument arrays
  against the last boundary; here every unscoped buffer is read against it, the result array among them:
  every weakly fair execution terminates, without a fault, in a memory that agrees with `Gen.W14` on every
  buffer that outlives the kernels' scopes. `run_value` then names the result and the arguments.
-/
import proofs.«117999_j30562987278370_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, and the final memory holds,
    in every buffer that is not scoped to a kernel, what the fold through the fourteen segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The run with the result array and the eight argument arrays named: the result holds the last boundary's
    contents of its buffer, every argument its launch contents. -/
theorem run_value : θ_run defs (onTc (τ := τ) (main (F := F))) ⟨m, fun _ => 0, ρ⟩ (fun r => ∀ c : Dev nD,
      r.2.mem ((c.tc : Thread nD τ).loc main_v74) = W14 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v74 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)
    (run_all m ρ)

end Cert.KernelIdeal.KRun

end
-- ==== Proof.KHost.lean ====
/-
  The kernel program's host side, stretch by stretch.

  Between its six pallas_calls the program runs stretches of host operations. Named here, as functions of the
  arrays they read: the 700000 source and destination entries (the given edges followed by one self loop per
  node), the in-degree and its inverse square root `ds` (zero where the degree is not positive), the argsort of
  the destinations, an entry vector read along that order, and — the one stretch that repeats, once per layer — the
  message aggregation: gather the rows of the pre-scaled projection that the (wrapped) source entries name, and
  add each into the row its destination entry names. Each stretch is then read at the buffers later segments
  use, over an ARBITRARY valuation `X` of the buffers before the stretch: what a stretch writes is the named
  function of what it reads, and what it does not write it leaves as it was.
-/
import proofs.«117999_j30562987278370_2_alg».proof.Proof.Gen.KernelIdeal.Frame
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- The source entries: row 0 of the edge array, then the node numbers (the self loops). -/
def srcK (x1 : IVec S2x600000 32) : IVec S700000 32 :=
  concatenate S700000 0 [⟨S600000, shapeCast _ (extractStridedSlice S1x600000 ![0, 0] x1 slices_S2x600000_S1x600000_0_0) shapeCasts_S1x600000_S600000⟩, ⟨S100000, iotaInDim S100000 32 0⟩] concatenates_S600000_S100000_S700000_d0

/-- The destination entries: row 1 of the edge array, then the node numbers. -/
def dstK (x1 : IVec S2x600000 32) : IVec S700000 32 :=
  concatenate S700000 0 [⟨S600000, shapeCast _ (extractStridedSlice S1x600000 ![1, 0] x1 slices_S2x600000_S1x600000_1_0) shapeCasts_S1x600000_S600000⟩, ⟨S100000, iotaInDim S100000 32 0⟩] concatenates_S600000_S100000_S700000_d0

/-- The in-degree: a one added at every destination entry. -/
def degK (x1 : IVec S2x600000 32) : FVec F S100000 .f32 :=
  Host.scatterAdd scatter_S100000_S700000x1_S700000_n_0_0_1 (broadcastInDim S100000 ![] bcast_S_S100000 (constant S_ .f32 0x00000000#32))
    (broadcastInDim S700000x1 ![0] bcast_S700000_S700000x1_0 (dstK x1)) (broadcastInDim S700000 ![] bcast_S_S700000 (constant S_ .f32 0x3F800000#32))

/-- `deg > 0 ? rsqrt (max deg 1) : 0`. -/
def dsK (x1 : IVec S2x600000 32) : FVec F S100000 .f32 :=
  select (cmpf .ogt (degK (F := F) x1) (broadcastInDim S100000 ![] bcast_S_S100000 (constant S_ .f32 0x00000000#32)))
    (Host.rsqrt (maximumf (degK (F := F) x1) (broadcastInDim S100000 ![] bcast_S_S100000 (constant S_ .f32 0x3F800000#32))))
    (broadcastInDim S100000 ![] bcast_S_S100000 (id (constant S_ .f32 0x00000000#32)))

/-- `ds` as a column `[100000, 1]`. -/
def ds2K (x1 : IVec S2x600000 32) : FVec F S100000x1 .f32 := shapeCast _ (dsK (F := F) x1) shapeCasts_S100000_S100000x1

/-- The argsort of the destination entries: the positions, carried through a stable sort of the entries. -/
def orderK (x1 : IVec S2x600000 32) : IVec S700000 32 :=
  (Host.sort2 S700000 0 comparator_i32_i32_d0 (dstK x1) (iotaInDim S700000 32 0)).2

/-- jnp's wrap of negative indices by the axis length `n`, entry by entry. -/
def wrapV (n : BitVec 32) (v : IVec S700000 32) : IVec S700000 32 :=
  select (cmpi .slt v (broadcastInDim S700000 ![] bcast_S_S700000 (constantI S_ 32 0#32)))
    (addi v (broadcastInDim S700000 ![] bcast_S_S700000 (constantI S_ 32 n))) v

/-- An entry vector as a column `[700000, 1]` of start indices. -/
def colV (v : IVec S700000 32) : IVec S700000x1 32 := broadcastInDim S700000x1 ![0] bcast_S700000_S700000x1_0 v

/-- An entry vector read along the argsort's order. -/
def sortedK (ent : IVec S700000 32) (x1 : IVec S2x600000 32) : IVec S700000 32 :=
  Host.gather gather_S700000_S700000x1_S700000_n_0_n_n_0_1_1 ent (colV (wrapV 700000#32 (orderK x1)))

/-- The message aggregation of one layer: the rows of `hs` that the wrapped source entries name, each added into
    the row its destination entry names, from zero. -/
def aggK (hs : FVec F S100000x128 .bf16) (srcS dstS : IVec S700000 32) : FVec F S100000x128 .f32 :=
  Host.scatterAdd scatter_S100000x128_S700000x1_S700000x128_1_0_0_1 (broadcastInDim S100000x128 ![] bcast_S_S100000x128 (constant S_ .f32 0x00000000#32))
    (colV dstS) (extf .f32 (Host.gather gather_S100000x128_S700000x1_S700000x128_1_0_n_n_0_1_1128 hs (colV (wrapV 100000#32 srcS))) bitsLt_bf16_f32)

/-- A bias vector as a row `[1, 128]`. -/
def biasRow (b : FVec F S128 .f32) : FVec F S1x128 .f32 := shapeCast _ b shapeCasts_S128_S1x128

/-! ## The stretches read over an arbitrary valuation -/

variable (X : Valuation τ sig (Elt F))

set_option maxHeartbeats 4000000 in
/-- The first stretch leaves the source entries, -/
theorem h0_v3 : StableHlo.after hostOps0 X (Proc.devRef .tc main_v3) = srcK (X (Proc.devRef .tc main_arg1)) := by
  after_results_simp
  first | rfl | skip

set_option maxHeartbeats 4000000 in
/-- the destination entries, -/
theorem h0_v6 : StableHlo.after hostOps0 X (Proc.devRef .tc main_v6) = dstK (X (Proc.devRef .tc main_arg1)) := by
  after_results_simp
  first | rfl | skip

set_option maxHeartbeats 4000000 in
/-- the test `deg > 0`, -/
theorem h0_v12 : StableHlo.after hostOps0 X (Proc.devRef .tc main_v12) = cmpf .ogt (degK (F := F) (X (Proc.devRef .tc main_arg1))) (broadcastInDim S100000 ![] bcast_S_S100000 (constant S_ .f32 0x00000000#32)) := by
  after_results_simp
  first | rfl | skip

set_option maxHeartbeats 4000000 in
/-- `rsqrt (max deg 1)`, -/
theorem h0_v15 : StableHlo.after hostOps0 X (Proc.devRef .tc main_v15) = Host.rsqrt (maximumf (degK (F := F) (X (Proc.devRef .tc main_arg1))) (broadcastInDim S100000 ![] bcast_S_S100000 (constant S_ .f32 0x3F800000#32))) := by
  after_results_simp
  first | rfl | skip

set_option maxHeartbeats 4000000 in
/-- and a scalar zero. -/
theorem h0_cst3 : StableHlo.after hostOps0 X (Proc.devRef .tc main_cst_3) = constant S_ .f32 0x00000000#32 := by
  after_results_simp
  first | rfl | skip

set_option maxHeartbeats 4000000 in
/-- The `where`: the selection between the two. -/
theorem h01_v16 : StableHlo.after hostOps0_1 X (Proc.devRef .tc main_v16) = select (X (Proc.devRef .tc main_v12)) (X (Proc.devRef .tc main_v15)) (broadcastInDim S100000 ![] bcast_S_S100000 (id (X (Proc.devRef .tc main_cst_3)))) := by
  after_results_simp
  first | rfl | skip

set_option maxHeartbeats 4000000 in
/-- The reshape to a column. -/
theorem h02_v17 : StableHlo.after hostOps0_2 X (Proc.devRef .tc main_v17) = shapeCast _ (X (Proc.devRef .tc main_v16)) shapeCasts_S100000_S100000x1 := by
  after_results_simp
  first | rfl | skip

set_option maxHeartbeats 4000000 in
/-- The argsort. -/
theorem h03_v18 : StableHlo.after hostOps0_3 X (Proc.devRef .tc main_v18) = (Host.sort2 S700000 0 comparator_i32_i32_d0 (X (Proc.devRef .tc main_v6)) (iotaInDim S700000 32 0)).2 := by
  after_results_simp
  first | rfl | skip

set_option maxHeartbeats 4000000 in
/-- The sources along the order, -/
theorem h04_v25 : StableHlo.after hostOps0_4 X (Proc.devRef .tc main_v25) = Host.gather gather_S700000_S700000x1_S700000_n_0_n_n_0_1_1 (X (Proc.devRef .tc main_v3)) (colV (wrapV 700000#32 (X (Proc.devRef .tc main_v18)))) := by
  after_results_simp
  first | rfl | skip

set_option maxHeartbeats 4000000 in
/-- and the destinations. -/
theorem h04_v32 : StableHlo.after hostOps0_4 X (Proc.devRef .tc main_v32) = Host.gather gather_S700000_S700000x1_S700000_n_0_n_n_0_1_1 (X (Proc.devRef .tc main_v6)) (colV (wrapV 700000#32 (X (Proc.devRef .tc main_v18)))) := by
  after_results_simp
  first | rfl | skip

set_option maxHeartbeats 4000000 in
/-- Layer 1's aggregation -/
theorem h1_v44 : StableHlo.after hostOps1 X (Proc.devRef .tc main_v44) = aggK (X (Proc.devRef .tc main_v33)) (X (Proc.devRef .tc main_v25)) (X (Proc.devRef .tc main_v32)) := by
  after_results_simp
  first | rfl | skip

set_option maxHeartbeats 4000000 in
/-- and its bias row. -/
theorem h1_v45 : StableHlo.after hostOps1 X (Proc.devRef .tc main_v45) = biasRow (X (Proc.devRef .tc main_arg3)) := by
  after_results_simp
  first | rfl | skip

set_option maxHeartbeats 4000000 in
/-- Layer 2's aggregation -/
theorem h3_v58 : StableHlo.after hostOps3 X (Proc.devRef .tc main_v58) = aggK (X (Proc.devRef .tc main_v47)) (X (Proc.devRef .tc main_v25)) (X (Proc.devRef .tc main_v32)) := by
  after_results_simp
  first | rfl | skip

set_option maxHeartbeats 4000000 in
/-- and its bias row. -/
theorem h3_v59 : StableHlo.after hostOps3 X (Proc.devRef .tc main_v59) = biasRow (X (Proc.devRef .tc main_arg5)) := by
  after_results_simp
  first | rfl | skip

set_option maxHeartbeats 4000000 in
/-- Layer 3's aggregation -/
theorem h5_v72 : StableHlo.after hostOps5 X (Proc.devRef .tc main_v72) = aggK (X (Proc.devRef .tc main_v61)) (X (Proc.devRef .tc main_v25)) (X (Proc.devRef .tc main_v32)) := by
  after_results_simp
  first | rfl | skip

set_option maxHeartbeats 4000000 in
/-- and its bias row. -/
theorem h5_v73 : StableHlo.after hostOps5 X (Proc.devRef .tc main_v73) = biasRow (X (Proc.devRef .tc main_arg7)) := by
  after_results_simp
  first | rfl | skip

set_option maxHeartbeats 4000000 in
theorem h0_keep_arg0 : StableHlo.after hostOps0 X (Proc.devRef .tc main_arg0) = X (Proc.devRef .tc main_arg0) := by
  after_results_simp

set_option maxHeartbeats 4000000 in
theorem h0_keep_arg1 : StableHlo.after hostOps0 X (Proc.devRef .tc main_arg1) = X (Proc.devRef .tc main_arg1) := by
  after_results_simp

set_option maxHeartbeats 4000000 in
theorem h0_keep_arg2 : StableHlo.after hostOps0 X (Proc.devRef .tc main_arg2) = X (Proc.devRef .tc main_arg2) := by
  after_results_simp

set_option maxHeartbeats 4000000 in
theorem h0_keep_arg3 : StableHlo.after hostOps0 X (Proc.devRef .tc main_arg3) = X (Proc.devRef .tc main_arg3) := by
  after_results_simp

set_option maxHeartbeats 4000000 in
theorem h0_keep_arg4 : StableHlo.after hostOps0 X (Proc.devRef .tc main_arg4) = X (Proc.devRef .tc main_arg4) := by
  after_results_simp

set_option maxHeartbeats 4000000 in
theorem h0_keep_arg5 : StableHlo.after hostOps0 X (Proc.devRef .tc main_arg5) = X (Proc.devRef .tc main_arg5) := by
  after_results_simp

set_option maxHeartbeats 4000000 in
theorem h0_keep_arg6 : StableHlo.after hostOps0 X (Proc.devRef .tc main_arg6) = X (Proc.devRef .tc main_arg6) := by
  after_results_simp

set_option maxHeartbeats 4000000 in
theorem h0_keep_arg7 : StableHlo.after hostOps0 X (Proc.devRef .tc main_arg7) = X (Proc.devRef .tc main_arg7) := by
  after_results_simp

set_option maxHeartbeats 4000000 in
theorem h01_keep_v3 : StableHlo.after hostOps0_1 X (Proc.devRef .tc main_v3) = X (Proc.devRef .tc main_v3) := by
  after_results_simp

set_option maxHeartbeats 4000000 in
theorem h01_keep_v6 : StableHlo.after hostOps0_1 X (Proc.devRef .tc main_v6) = X (Proc.devRef .tc main_v6) := by
  after_results_simp

set_option maxHeartbeats 4000000 in
theorem h01_keep_arg0 : StableHlo.after hostOps0_1 X (Proc.devRef .tc main_arg0) = X (Proc.devRef .tc main_arg0) := by
  after_results_simp

set_option maxHeartbeats 4000000 in
theorem h01_keep_arg1 : StableHlo.after hostOps0_1 X (Proc.devRef .tc main_arg1) = X (Proc.devRef .tc main_arg1) := by
  after_results_simp

set_option maxHeartbeats 4000000 in
theorem h01_keep_arg2 : StableHlo.after hostOps0_1 X (Proc.devRef .tc main_arg2) = X (Proc.devRef .tc main_arg2) := by
  after_results_simp

set_option maxHeartbeats 4000000 in
theorem h01_keep_arg3 : StableHlo.after hostOps0_1 X (Proc.devRef .tc main_arg3) = X (Proc.devRef .tc main_arg3) := by
  after_results_simp

set_option maxHeartbeats 4000000 in
theorem h01_keep_arg4 : StableHlo.after hostOps0_1 X (Proc.devRef .tc main_arg4) = X (Proc.devRef .tc main_arg4) := by
  after_results_simp

set_option maxHeartbeats 4000000 in
theorem h01_keep_arg5 : StableHlo.after hostOps0_1 X (Proc.devRef .tc main_arg5) = X (Proc.devRef .tc main_arg5) := by
  after_results_simp

set_option maxHeartbeats 4000000 in
theorem h01_keep_arg6 : StableHlo.after hostOps0_1 X (Proc.devRef .tc main_arg6) = X (Proc.devRef .tc main_arg6) := by
  after_results_simp

set_option maxHeartbeats 4000000 in
theorem h01_keep_arg7 : StableHlo.after hostOps0_1 X (Proc.devRef .tc main_arg7) = X (Proc.devRef .tc main_arg7) := by
  after_results_simp

set_option maxHeartbeats 4000000 in
theorem h02_keep_v3 : StableHlo.after hostOps0_2 X (Proc.devRef .tc main_v3) = X (Proc.devRef .tc main_v3) := by
  after_results_simp

set_option maxHeartbeats 4000000 in
theorem h02_keep_v6 : StableHlo.after hostOps0_2 X (Proc.devRef .tc main_v6) = X (Proc.devRef .tc main_v6) := by
  after_results_simp

set_option maxHeartbeats 4000000 in
theorem h02_keep_arg0 : StableHlo.after hostOps0_2 X (Proc.devRef .tc main_arg0) = X (Proc.devRef .tc main_arg0) := by
  after_results_simp

set_option maxHeartbeats 4000000 in
theorem h02_keep_arg1 : StableHlo.after hostOps0_2 X (Proc.devRef .tc main_arg1) = X (Proc.devRef .tc main_arg1) := by
  after_results_simp

set_option maxHeartbeats 4000000 in
theorem h02_keep_arg2 : StableHlo.after hostOps0_2 X (Proc.devRef .tc main_arg2) = X (Proc.devRef .tc main_arg2) := by
  after_results_simp

set_option maxHeartbeats 4000000 in
theorem h02_keep_arg3 : StableHlo.after hostOps0_2 X (Proc.devRef .tc main_arg3) = X (Proc.devRef .tc main_arg3) := by
  after_results_simp

set_option maxHeartbeats 4000000 in
theorem h02_keep_arg4 : StableHlo.after hostOps0_2 X (Proc.devRef .tc main_arg4) = X (Proc.devRef .tc main_arg4) := by
  after_results_simp

set_option maxHeartbeats 4000000 in
theorem h02_keep_arg5 : StableHlo.after hostOps0_2 X (Proc.devRef .tc main_arg5) = X (Proc.devRef .tc main_arg5) := by
  after_results_simp

set_option maxHeartbeats 4000000 in
theorem h02_keep_arg6 : StableHlo.after hostOps0_2 X (Proc.devRef .tc main_arg6) = X (Proc.devRef .tc main_arg6) := by
  after_results_simp

set_option maxHeartbeats 4000000 in
theorem h02_keep_arg7 : StableHlo.after hostOps0_2 X (Proc.devRef .tc main_arg7) = X (Proc.devRef .tc main_arg7) := by
  after_results_simp

set_option maxHeartbeats 4000000 in
theorem h03_keep_v17 : StableHlo.after hostOps0_3 X (Proc.devRef .tc main_v17) = X (Proc.devRef .tc main_v17) := by
  after_results_simp

set_option maxHeartbeats 4000000 in
theorem h03_keep_v3 : StableHlo.after hostOps0_3 X (Proc.devRef .tc main_v3) = X (Proc.devRef .tc main_v3) := by
  after_results_simp

set_option maxHeartbeats 4000000 in
theorem h03_keep_v6 : StableHlo.after hostOps0_3 X (Proc.devRef .tc main_v6) = X (Proc.devRef .tc main_v6) := by
  after_results_simp

set_option maxHeartbeats 4000000 in
theorem h03_keep_arg0 : StableHlo.after hostOps0_3 X (Proc.devRef .tc main_arg0) = X (Proc.devRef .tc main_arg0) := by
  after_results_simp

set_option maxHeartbeats 4000000 in
theorem h03_keep_arg1 : StableHlo.after hostOps0_3 X (Proc.devRef .tc main_arg1) = X (Proc.devRef .tc main_arg1) := by
  after_results_simp

set_option maxHeartbeats 4000000 in
theorem h03_keep_arg2 : StableHlo.after hostOps0_3 X (Proc.devRef .tc main_arg2) = X (Proc.devRef .tc main_arg2) := by
  after_results_simp

set_option maxHeartbeats 4000000 in
theorem h03_keep_arg3 : StableHlo.after hostOps0_3 X (Proc.devRef .tc main_arg3) = X (Proc.devRef .tc main_arg3) := by
  after_results_simp

set_option maxHeartbeats 4000000 in
theorem h03_keep_arg4 : StableHlo.after hostOps0_3 X (Proc.devRef .tc main_arg4) = X (Proc.devRef .tc main_arg4) := by
  after_results_simp

set_option maxHeartbeats 4000000 in
theorem h03_keep_arg5 : StableHlo.after hostOps0_3 X (Proc.devRef .tc main_arg5) = X (Proc.devRef .tc main_arg5) := by
  after_results_simp

set_option maxHeartbeats 4000000 in
theorem h03_keep_arg6 : StableHlo.after hostOps0_3 X (Proc.devRef .tc main_arg6) = X (Proc.devRef .tc main_arg6) := by
  after_results_simp

set_option maxHeartbeats 4000000 in
theorem h03_keep_arg7 : StableHlo.after hostOps0_3 X (Proc.devRef .tc main_arg7) = X (Proc.devRef .tc main_arg7) := by
  after_results_simp

set_option maxHeartbeats 4000000 in
theorem h04_keep_v17 : StableHlo.after hostOps0_4 X (Proc.devRef .tc main_v17) = X (Proc.devRef .tc main_v17) := by
  after_results_simp

set_option maxHeartbeats 4000000 in
theorem h04_keep_arg0 : StableHlo.after hostOps0_4 X (Proc.devRef .tc main_arg0) = X (Proc.devRef .tc main_arg0) := by
  after_results_simp

set_option maxHeartbeats 4000000 in
theorem h04_keep_arg1 : StableHlo.after hostOps0_4 X (Proc.devRef .tc main_arg1) = X (Proc.devRef .tc main_arg1) := by
  after_results_simp

set_option maxHeartbeats 4000000 in
theorem h04_keep_arg2 : StableHlo.after hostOps0_4 X (Proc.devRef .tc main_arg2) = X (Proc.devRef .tc main_arg2) := by
  after_results_simp

set_option maxHeartbeats 4000000 in
theorem h04_keep_arg3 : StableHlo.after hostOps0_4 X (Proc.devRef .tc main_arg3) = X (Proc.devRef .tc main_arg3) := by
  after_results_simp

set_option maxHeartbeats 4000000 in
theorem h04_keep_arg4 : StableHlo.after hostOps0_4 X (Proc.devRef .tc main_arg4) = X (Proc.devRef .tc main_arg4) := by
  after_results_simp

set_option maxHeartbeats 4000000 in
theorem h04_keep_arg5 : StableHlo.after hostOps0_4 X (Proc.devRef .tc main_arg5) = X (Proc.devRef .tc main_arg5) := by
  after_results_simp

set_option maxHeartbeats 4000000 in
theorem h04_keep_arg6 : StableHlo.after hostOps0_4 X (Proc.devRef .tc main_arg6) = X (Proc.devRef .tc main_arg6) := by
  after_results_simp

set_option maxHeartbeats 4000000 in
theorem h04_keep_arg7 : StableHlo.after hostOps0_4 X (Proc.devRef .tc main_arg7) = X (Proc.devRef .tc main_arg7) := by
  after_results_simp

set_option maxHeartbeats 4000000 in
theorem h1_keep_v17 : StableHlo.after hostOps1 X (Proc.devRef .tc main_v17) = X (Proc.devRef .tc main_v17) := by
  after_results_simp

set_option maxHeartbeats 4000000 in
theorem h1_keep_v25 : StableHlo.after hostOps1 X (Proc.devRef .tc main_v25) = X (Proc.devRef .tc main_v25) := by
  after_results_simp

set_option maxHeartbeats 4000000 in
theorem h1_keep_v32 : StableHlo.after hostOps1 X (Proc.devRef .tc main_v32) = X (Proc.devRef .tc main_v32) := by
  after_results_simp

set_option maxHeartbeats 4000000 in
theorem h1_keep_arg4 : StableHlo.after hostOps1 X (Proc.devRef .tc main_arg4) = X (Proc.devRef .tc main_arg4) := by
  after_results_simp

set_option maxHeartbeats 4000000 in
theorem h1_keep_arg5 : StableHlo.after hostOps1 X (Proc.devRef .tc main_arg5) = X (Proc.devRef .tc main_arg5) := by
  after_results_simp

set_option maxHeartbeats 4000000 in
theorem h1_keep_arg6 : StableHlo.after hostOps1 X (Proc.devRef .tc main_arg6) = X (Proc.devRef .tc main_arg6) := by
  after_results_simp

set_option maxHeartbeats 4000000 in
theorem h1_keep_arg7 : StableHlo.after hostOps1 X (Proc.devRef .tc main_arg7) = X (Proc.devRef .tc main_arg7) := by
  after_results_simp

set_option maxHeartbeats 4000000 in
theorem h3_keep_v17 : StableHlo.after hostOps3 X (Proc.devRef .tc main_v17) = X (Proc.devRef .tc main_v17) := by
  after_results_simp

set_option maxHeartbeats 4000000 in
theorem h3_keep_v25 : StableHlo.after hostOps3 X (Proc.devRef .tc main_v25) = X (Proc.devRef .tc main_v25) := by
  after_results_simp

set_option maxHeartbeats 4000000 in
theorem h3_keep_v32 : StableHlo.after hostOps3 X (Proc.devRef .tc main_v32) = X (Proc.devRef .tc main_v32) := by
  after_results_simp

set_option maxHeartbeats 4000000 in
theorem h3_keep_arg6 : StableHlo.after hostOps3 X (Proc.devRef .tc main_arg6) = X (Proc.devRef .tc main_arg6) := by
  after_results_simp

set_option maxHeartbeats 4000000 in
theorem h3_keep_arg7 : StableHlo.after hostOps3 X (Proc.devRef .tc main_arg7) = X (Proc.devRef .tc main_arg7) := by
  after_results_simp

set_option maxHeartbeats 4000000 in
theorem h5_keep_v17 : StableHlo.after hostOps5 X (Proc.devRef .tc main_v17) = X (Proc.devRef .tc main_v17) := by
  after_results_simp

end Cert.KernelIdeal.KHost

end
-- ==== Proof.Spec.lean ====
/-
  The mathematics both programs compute: three stacked graph convolutions over 100000 nodes and
  700000 directed edges (600000 given ones followed by one self loop per node), 128 features wide.

  An edge entry names a node by a signed 32-bit word. A GATHER reads the row an entry names after jnp's wrap of
  a negative entry (v < 0 ↦ v + 100000) and a clamp into [0, 99999]; a SCATTER adds an update into the row
  whose number the raw entry IS, and drops it when it is no row. One layer, in the reference's arrangement, is

      out[n, j] = (∑ over edges e landing on n of  (a · W)[row(src e), j] · (ds[row(src e)] · ds[row(dst e)])) + b[j]

  where `ds` is the inverse square root of the in-degree (any vector, for what is stated here).
  The kernel's arrangement scales the rows of `a · W` by `ds` before the gather (`pre`) and the rows of the
  scattered sum by `ds` after it (`post`), and walks the edges in the order an argsort of the destinations
  gives; the two agree because a finite nonnegative real factor distributes over any sum of extended reals and
  a finite sum does not depend on the order of its terms.
-/
import Idealize.ShloMosaic.PureOps.Ideal
import Idealize.ShloMosaic.Lib.ValueIdx

noncomputable section

open scoped BigOperators

namespace Cert.Spec

open Idealize.ShloMosaic Idealize.ShloMosaic.ValueIdx

/-- jnp's wrap of a negative index by the axis length `n`, as both programs spell it: `v <ₛ 0 ? v + n : v`. -/
def wrapAt (n v : BitVec 32) : BitVec 32 := Scalar.select (IntOp.cmpi .slt v 0#32) (IntOp.addi v n) v

/-- The node row a gather reads for the entry `v`: the word read signed and clamped into `[0, 99999]`. -/
def rowAt (v : BitVec 32) : Fin 100000 := ⟨min v.toInt.toNat (100000 - 1), by omega⟩

/-- The row a gather reads for edge `e` of the edge-entry vector `ent` (sources or destinations), wrapped first. -/
def rowOfEdge (ent : IVec ⟨1, ![700000]⟩ 32) (e : Fin 700000) : Fin 100000 := rowAt (wrapAt 100000#32 (ent (ix1 e)))

/-- The edges a scatter lands on row `n`: those whose raw destination entry, read signed, is `n`. -/
def lands (dst : IVec ⟨1, ![700000]⟩ 32) (n : Fin 100000) : Finset (Fin 700000) :=
  Finset.univ.filter fun e => (dst (ix1 e)).toInt = (n.val : Int)

/-- `(a · W)[n, j]`. -/
def mm (a : (⟨2, ![100000, 128]⟩ : Shape).Idx → EReal) (W : (⟨2, ![128, 128]⟩ : Shape).Idx → EReal)
    (n : Fin 100000) (j : Fin 128) : EReal :=
  ∑ k : Fin 128, a (ix2 n k) * W (ix2 k j)

/-- One graph convolution without its activation, at `(n, j)`, in the reference's arrangement. -/
def layerAt (src dst : IVec ⟨1, ![700000]⟩ 32) (ds : (⟨1, ![100000]⟩ : Shape).Idx → EReal)
    (a : (⟨2, ![100000, 128]⟩ : Shape).Idx → EReal) (W : (⟨2, ![128, 128]⟩ : Shape).Idx → EReal)
    (b : (⟨1, ![128]⟩ : Shape).Idx → EReal) (n : Fin 100000) (j : Fin 128) : EReal :=
  (∑ e ∈ lands dst n, mm a W (rowOfEdge src e) j * (ds (ix1 (rowOfEdge src e)) * ds (ix1 (rowOfEdge dst e))))
    + b (ix1 j)

/-- The layer as an array. -/
def layer (src dst : IVec ⟨1, ![700000]⟩ 32) (ds : (⟨1, ![100000]⟩ : Shape).Idx → EReal)
    (a : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => layerAt src dst ds a W b (i 0) (i 1)

/-- The rectifier `max x 0`, entry by entry. -/
def relu (a : (⟨2, ![100000, 128]⟩ : Shape).Idx → EReal) : (⟨2, ![100000, 128]⟩ : Shape).Idx → EReal :=
  fun i => max (a i) 0

/-- The three layers: rectified after the first two, plain after the third. -/
def gcn (src dst : IVec ⟨1, ![700000]⟩ 32) (ds : (⟨1, ![100000]⟩ : Shape).Idx → EReal)
    (x : (⟨2, ![100000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal) :
    (⟨2, ![100000, 128]⟩ : Shape).Idx → EReal :=
  layer src dst ds (relu (layer src dst ds (relu (layer src dst ds x W1 b1)) W2 b2)) W3 b3

/-! ## The kernel's two fused stages, as whole-array functions -/

/-- The projection stage: `(a · W)[n, j] · d[n]`, the scale a column `[100000, 1]`. -/
def pre (a : (⟨2, ![100000, 128]⟩ : Shape).Idx → EReal) (W : (⟨2, ![128, 128]⟩ : Shape).Idx → EReal)
    (d : (⟨2, ![100000, 1]⟩ : Shape).Idx → EReal) : (⟨2, ![100000, 128]⟩ : Shape).Idx → EReal :=
  fun i => mm a W (i 0) (i 1) * d (ix2 (i 0) (0 : Fin 1))

/-- The epilogue without activation: `agg[n, j] · d[n] + b[j]`, the bias a row `[1, 128]`. -/
def post (agg : (⟨2, ![100000, 128]⟩ : Shape).Idx → EReal) (d : (⟨2, ![100000, 1]⟩ : Shape).Idx → EReal)
    (b : (⟨2, ![1, 128]⟩ : Shape).Idx → EReal) : (⟨2, ![100000, 128]⟩ : Shape).Idx → EReal :=
  fun i => agg i * d (ix2 (i 0) (0 : Fin 1)) + b (ix2 (0 : Fin 1) (i 1))

/-- The epilogue with the rectifier. -/
def postRelu (agg : (⟨2, ![100000, 128]⟩ : Shape).Idx → EReal) (d : (⟨2, ![100000, 1]⟩ : Shape).Idx → EReal)
    (b : (⟨2, ![1, 128]⟩ : Shape).Idx → EReal) : (⟨2, ![100000, 128]⟩ : Shape).Idx → EReal :=
  fun i => max (post agg d b i) 0

end Cert.Spec

end
-- ==== Proof.KChain.lean ====
/-
  The kernel program's result, read through the fourteen segments.

  Given what each of the six pallas_calls leaves in its output array as a function of its three input arrays (the
  hypotheses `Regions`: the projection stage `pre` for calls 0, 2, 4; the epilogue `postRelu` for calls 1, 3 and
  `post` for call 5), the contents of the buffers at each segment boundary are followed from the launch memory:
  a host stretch writes the named function of what it reads (Proof/KHost.lean) and leaves the rest; a region
  writes its output array and leaves every other buffer — its input arrays included — as it found it. What comes
  out at the last boundary is the three layers composed in the kernel's arrangement:
      post (agg (pre (postRelu (agg (pre (postRelu (agg (pre x W1)) b1) W2)) b2) W3)) b3 .
-/
import proofs.«117999_j30562987278370_2_alg».proof.Proof.KHost
import proofs.«117999_j30562987278370_2_alg».proof.Proof.Spec

set_option maxRecDepth 16384

noncomputable section

namespace Cert.KernelIdeal.KChain

open Cert.KernelIdeal Cert.KernelIdeal.Gen Cert.KernelIdeal.KHost
open Idealize.ShloMosaic Idealize.ShloMosaic.TcCoe Idealize.ShloMosaic.Tactic Idealize.SL.Sem Idealize.ShloMosaic.StableHlo
open Idealize.ShloMosaic.Pipeline (Dat)

/-- What the six pallas_calls compute, each at ANY contents `V` of the buffers at its entry: its output array after
    the call, as a whole-array function of its three input arrays. -/
structure Regions : Prop where
  r0 : ∀ (V : (c : Dev nD) → (b : Ref sig .tc) → Buf (Elt Ideal) ((c : Thread nD τ).loc b)) (c : Dev nD),
    (dat0 (F := Ideal) V c).arrAt 3 cfg0.N = Cert.Spec.pre (V c main_arg0) (V c main_arg2) (V c main_v17)
  r1 : ∀ (V : (c : Dev nD) → (b : Ref sig .tc) → Buf (Elt Ideal) ((c : Thread nD τ).loc b)) (c : Dev nD),
    (dat1 (F := Ideal) V c).arrAt 3 cfg1.N = Cert.Spec.postRelu (V c main_v44) (V c main_v17) (V c main_v45)
  r2 : ∀ (V : (c : Dev nD) → (b : Ref sig .tc) → Buf (Elt Ideal) ((c : Thread nD τ).loc b)) (c : Dev nD),
    (dat2 (F := Ideal) V c).arrAt 3 cfg2.N = Cert.Spec.pre (V c main_v46) (V c main_arg4) (V c main_v17)
  r3 : ∀ (V : (c : Dev nD) → (b : Ref sig .tc) → Buf (Elt Ideal) ((c : Thread nD τ).loc b)) (c : Dev nD),
    (dat3 (F := Ideal) V c).arrAt 3 cfg3.N = Cert.Spec.postRelu (V c main_v58) (V c main_v17) (V c main_v59)
  r4 : ∀ (V : (c : Dev nD) → (b : Ref sig .tc) → Buf (Elt Ideal) ((c : Thread nD τ).loc b)) (c : Dev nD),
    (dat4 (F := Ideal) V c).arrAt 3 cfg4.N = Cert.Spec.pre (V c main_v60) (V c main_arg6) (V c main_v17)
  r5 : ∀ (V : (c : Dev nD) → (b : Ref sig .tc) → Buf (Elt Ideal) ((c : Thread nD τ).loc b)) (c : Dev nD),
    (dat5 (F := Ideal) V c).arrAt 3 cfg5.N = Cert.Spec.post (V c main_v72) (V c main_v17) (V c main_v73)

variable (h : Regions) (m : (ℓ : Loc nD τ sig) → Buf (Elt Ideal) ℓ) (ρ : Dev nD → PrngReg) (c : Dev nD)

/-! ## Up to the first region: the arguments as launched, the sorted entries, the scale column -/

theorem W5_arg0 : W5 m ρ c (Proc.devRef .tc main_arg0) = (m ((c : Thread nD τ).loc main_arg0)) :=
  (h04_keep_arg0 (W4 m ρ c)).trans ((h03_keep_arg0 (W3 m ρ c)).trans ((h02_keep_arg0 (W2 m ρ c)).trans ((h01_keep_arg0 (W1 m ρ c)).trans ((h0_keep_arg0 (W0 m ρ c)).trans rfl))))

theorem W5_arg2 : W5 m ρ c (Proc.devRef .tc main_arg2) = (m ((c : Thread nD τ).loc main_arg2)) :=
  (h04_keep_arg2 (W4 m ρ c)).trans ((h03_keep_arg2 (W3 m ρ c)).trans ((h02_keep_arg2 (W2 m ρ c)).trans ((h01_keep_arg2 (W1 m ρ c)).trans ((h0_keep_arg2 (W0 m ρ c)).trans rfl))))

theorem W5_arg3 : W5 m ρ c (Proc.devRef .tc main_arg3) = (m ((c : Thread nD τ).loc main_arg3)) :=
  (h04_keep_arg3 (W4 m ρ c)).trans ((h03_keep_arg3 (W3 m ρ c)).trans ((h02_keep_arg3 (W2 m ρ c)).trans ((h01_keep_arg3 (W1 m ρ c)).trans ((h0_keep_arg3 (W0 m ρ c)).trans rfl))))

theorem W5_arg4 : W5 m ρ c (Proc.devRef .tc main_arg4) = (m ((c : Thread nD τ).loc main_arg4)) :=
  (h04_keep_arg4 (W4 m ρ c)).trans ((h03_keep_arg4 (W3 m ρ c)).trans ((h02_keep_arg4 (W2 m ρ c)).trans ((h01_keep_arg4 (W1 m ρ c)).trans ((h0_keep_arg4 (W0 m ρ c)).trans rfl))))

theorem W5_arg5 : W5 m ρ c (Proc.devRef .tc main_arg5) = (m ((c : Thread nD τ).loc main_arg5)) :=
  (h04_keep_arg5 (W4 m ρ c)).trans ((h03_keep_arg5 (W3 m ρ c)).trans ((h02_keep_arg5 (W2 m ρ c)).trans ((h01_keep_arg5 (W1 m ρ c)).trans ((h0_keep_arg5 (W0 m ρ c)).trans rfl))))

theorem W5_arg6 : W5 m ρ c (Proc.devRef .tc main_arg6) = (m ((c : Thread nD τ).loc main_arg6)) :=
  (h04_keep_arg6 (W4 m ρ c)).trans ((h03_keep_arg6 (W3 m ρ c)).trans ((h02_keep_arg6 (W2 m ρ c)).trans ((h01_keep_arg6 (W1 m ρ c)).trans ((h0_keep_arg6 (W0 m ρ c)).trans rfl))))

theorem W5_arg7 : W5 m ρ c (Proc.devRef .tc main_arg7) = (m ((c : Thread nD τ).loc main_arg7)) :=
  (h04_keep_arg7 (W4 m ρ c)).trans ((h03_keep_arg7 (W3 m ρ c)).trans ((h02_keep_arg7 (W2 m ρ c)).trans ((h01_keep_arg7 (W1 m ρ c)).trans ((h0_keep_arg7 (W0 m ρ c)).trans rfl))))

/-- The entries, the order and `ds` as the first region finds them. -/
theorem W3_v3 : W3 m ρ c (Proc.devRef .tc main_v3) = srcK (m ((c : Thread nD τ).loc main_arg1)) :=
  (h02_keep_v3 (W2 m ρ c)).trans ((h01_keep_v3 (W1 m ρ c)).trans (h0_v3 (W0 m ρ c)))

theorem W3_v6 : W3 m ρ c (Proc.devRef .tc main_v6) = dstK (m ((c : Thread nD τ).loc main_arg1)) :=
  (h02_keep_v6 (W2 m ρ c)).trans ((h01_keep_v6 (W1 m ρ c)).trans (h0_v6 (W0 m ρ c)))

theorem W4_v3 : W4 m ρ c (Proc.devRef .tc main_v3) = srcK (m ((c : Thread nD τ).loc main_arg1)) :=
  (h03_keep_v3 (W3 m ρ c)).trans (W3_v3 m ρ c)

theorem W4_v6 : W4 m ρ c (Proc.devRef .tc main_v6) = dstK (m ((c : Thread nD τ).loc main_arg1)) :=
  (h03_keep_v6 (W3 m ρ c)).trans (W3_v6 m ρ c)

theorem W4_v18 : W4 m ρ c (Proc.devRef .tc main_v18) = orderK (m ((c : Thread nD τ).loc main_arg1)) :=
  (h03_v18 (W3 m ρ c)).trans (by rw [W3_v6 m ρ c]; rfl)

theorem W5_v25 : W5 m ρ c (Proc.devRef .tc main_v25) = (sortedK (srcK (m ((c : Thread nD τ).loc main_arg1))) (m ((c : Thread nD τ).loc main_arg1))) :=
  (h04_v25 (W4 m ρ c)).trans (by rw [W4_v3 m ρ c, W4_v18 m ρ c]; rfl)

theorem W5_v32 : W5 m ρ c (Proc.devRef .tc main_v32) = (sortedK (dstK (m ((c : Thread nD τ).loc main_arg1))) (m ((c : Thread nD τ).loc main_arg1))) :=
  (h04_v32 (W4 m ρ c)).trans (by rw [W4_v6 m ρ c, W4_v18 m ρ c]; rfl)

theorem W2_v16 : W2 m ρ c (Proc.devRef .tc main_v16) = dsK (F := Ideal) (m ((c : Thread nD τ).loc main_arg1)) :=
  (h01_v16 (W1 m ρ c)).trans (by
    rw [show W1 m ρ c (Proc.devRef .tc main_v12) = _ from h0_v12 (W0 m ρ c), show W1 m ρ c (Proc.devRef .tc main_v15) = _ from h0_v15 (W0 m ρ c),
      show W1 m ρ c (Proc.devRef .tc main_cst_3) = _ from h0_cst3 (W0 m ρ c)]
    rfl)

theorem W5_v17 : W5 m ρ c (Proc.devRef .tc main_v17) = (ds2K (F := Ideal) (m ((c : Thread nD τ).loc main_arg1))) :=
  (h04_keep_v17 (W4 m ρ c)).trans ((h03_keep_v17 (W3 m ρ c)).trans ((h02_v17 (W2 m ρ c)).trans (by rw [W2_v16 m ρ c]; rfl)))

/-! ## Layer 1 -/

include h

theorem W6_v33 : W6 m ρ c (Proc.devRef .tc main_v33) = Cert.Spec.pre (m ((c : Thread nD τ).loc main_arg0)) (m ((c : Thread nD τ).loc main_arg2)) (ds2K (F := Ideal) (m ((c : Thread nD τ).loc main_arg1))) :=
  (W6_arr m ρ c 3).trans ((h.r0 (V5 m ρ) c).trans (by rw [show V5 m ρ c main_arg0 = _ from W5_arg0 m ρ c, show V5 m ρ c main_arg2 = _ from W5_arg2 m ρ c, show V5 m ρ c main_v17 = _ from W5_v17 m ρ c]))

theorem W6_v17 : W6 m ρ c (Proc.devRef .tc main_v17) = (ds2K (F := Ideal) (m ((c : Thread nD τ).loc main_arg1))) :=
  (W6_arr m ρ c 2).trans (((dat0 (V5 m ρ) c).arrAt_in 2 rfl _).trans ((A_eq0 (V5 m ρ) c 2).trans (W5_v17 m ρ c)))

theorem W6_v25 : W6 m ρ c (Proc.devRef .tc main_v25) = (sortedK (srcK (m ((c : Thread nD τ).loc main_arg1))) (m ((c : Thread nD τ).loc main_arg1))) :=
  (W6_of_ne m ρ c main_v25 (by decide)).trans (W5_v25 m ρ c)

theorem W6_v32 : W6 m ρ c (Proc.devRef .tc main_v32) = (sortedK (dstK (m ((c : Thread nD τ).loc main_arg1))) (m ((c : Thread nD τ).loc main_arg1))) :=
  (W6_of_ne m ρ c main_v32 (by decide)).trans (W5_v32 m ρ c)

theorem W6_arg3 : W6 m ρ c (Proc.devRef .tc main_arg3) = (m ((c : Thread nD τ).loc main_arg3)) :=
  (W6_of_ne m ρ c main_arg3 (by decide)).trans (W5_arg3 m ρ c)

theorem W6_arg4 : W6 m ρ c (Proc.devRef .tc main_arg4) = (m ((c : Thread nD τ).loc main_arg4)) :=
  (W6_of_ne m ρ c main_arg4 (by decide)).trans (W5_arg4 m ρ c)

theorem W6_arg5 : W6 m ρ c (Proc.devRef .tc main_arg5) = (m ((c : Thread nD τ).loc main_arg5)) :=
  (W6_of_ne m ρ c main_arg5 (by decide)).trans (W5_arg5 m ρ c)

theorem W6_arg6 : W6 m ρ c (Proc.devRef .tc main_arg6) = (m ((c : Thread nD τ).loc main_arg6)) :=
  (W6_of_ne m ρ c main_arg6 (by decide)).trans (W5_arg6 m ρ c)

theorem W6_arg7 : W6 m ρ c (Proc.devRef .tc main_arg7) = (m ((c : Thread nD τ).loc main_arg7)) :=
  (W6_of_ne m ρ c main_arg7 (by decide)).trans (W5_arg7 m ρ c)

theorem W7_v44 : W7 m ρ c (Proc.devRef .tc main_v44) = aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1))) :=
  (h1_v44 (W6 m ρ c)).trans (by rw [W6_v33 h m ρ c, W6_v25 h m ρ c, W6_v32 h m ρ c])

theorem W7_v45 : W7 m ρ c (Proc.devRef .tc main_v45) = biasRow (F := Ideal) (m ((c : Thread nD τ).loc main_arg3)) :=
  (h1_v45 (W6 m ρ c)).trans (by rw [W6_arg3 h m ρ c])

theorem W7_v17 : W7 m ρ c (Proc.devRef .tc main_v17) = (ds2K (F := Ideal) (m ((c : Thread nD τ).loc main_arg1))) :=
  (h1_keep_v17 (W6 m ρ c)).trans (W6_v17 h m ρ c)

theorem W7_v25 : W7 m ρ c (Proc.devRef .tc main_v25) = (sortedK (srcK (m ((c : Thread nD τ).loc main_arg1))) (m ((c : Thread nD τ).loc main_arg1))) :=
  (h1_keep_v25 (W6 m ρ c)).trans (W6_v25 h m ρ c)

theorem W7_v32 : W7 m ρ c (Proc.devRef .tc main_v32) = (sortedK (dstK (m ((c : Thread nD τ).loc main_arg1))) (m ((c : Thread nD τ).loc main_arg1))) :=
  (h1_keep_v32 (W6 m ρ c)).trans (W6_v32 h m ρ c)

theorem W7_arg4 : W7 m ρ c (Proc.devRef .tc main_arg4) = (m ((c : Thread nD τ).loc main_arg4)) :=
  (h1_keep_arg4 (W6 m ρ c)).trans (W6_arg4 h m ρ c)

theorem W7_arg5 : W7 m ρ c (Proc.devRef .tc main_arg5) = (m ((c : Thread nD τ).loc main_arg5)) :=
  (h1_keep_arg5 (W6 m ρ c)).trans (W6_arg5 h m ρ c)

theorem W7_arg6 : W7 m ρ c (Proc.devRef .tc main_arg6) = (m ((c : Thread nD τ).loc main_arg6)) :=
  (h1_keep_arg6 (W6 m ρ c)).trans (W6_arg6 h m ρ c)

theorem W7_arg7 : W7 m ρ c (Proc.devRef .tc main_arg7) = (m ((c : Thread nD τ).loc main_arg7)) :=
  (h1_keep_arg7 (W6 m ρ c)).trans (W6_arg7 h m ρ c)

theorem W8_v46 : W8 m ρ c (Proc.devRef .tc main_v46) = Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3))) :=
  (W8_arr m ρ c 3).trans ((h.r1 (V7 m ρ) c).trans (by rw [show V7 m ρ c main_v44 = _ from W7_v44 h m ρ c, show V7 m ρ c main_v17 = _ from W7_v17 h m ρ c, show V7 m ρ c main_v45 = _ from W7_v45 h m ρ c]))

theorem W8_v17 : W8 m ρ c (Proc.devRef .tc main_v17) = (ds2K (F := Ideal) (m ((c : Thread nD τ).loc main_arg1))) :=
  (W8_arr m ρ c 1).trans (((dat1 (V7 m ρ) c).arrAt_in 1 rfl _).trans ((A_eq1 (V7 m ρ) c 1).trans (W7_v17 h m ρ c)))

theorem W8_v25 : W8 m ρ c (Proc.devRef .tc main_v25) = (sortedK (srcK (m ((c : Thread nD τ).loc main_arg1))) (m ((c : Thread nD τ).loc main_arg1))) :=
  (W8_of_ne m ρ c main_v25 (by decide)).trans (W7_v25 h m ρ c)

theorem W8_v32 : W8 m ρ c (Proc.devRef .tc main_v32) = (sortedK (dstK (m ((c : Thread nD τ).loc main_arg1))) (m ((c : Thread nD τ).loc main_arg1))) :=
  (W8_of_ne m ρ c main_v32 (by decide)).trans (W7_v32 h m ρ c)

theorem W8_arg4 : W8 m ρ c (Proc.devRef .tc main_arg4) = (m ((c : Thread nD τ).loc main_arg4)) :=
  (W8_of_ne m ρ c main_arg4 (by decide)).trans (W7_arg4 h m ρ c)

theorem W8_arg5 : W8 m ρ c (Proc.devRef .tc main_arg5) = (m ((c : Thread nD τ).loc main_arg5)) :=
  (W8_of_ne m ρ c main_arg5 (by decide)).trans (W7_arg5 h m ρ c)

theorem W8_arg6 : W8 m ρ c (Proc.devRef .tc main_arg6) = (m ((c : Thread nD τ).loc main_arg6)) :=
  (W8_of_ne m ρ c main_arg6 (by decide)).trans (W7_arg6 h m ρ c)

theorem W8_arg7 : W8 m ρ c (Proc.devRef .tc main_arg7) = (m ((c : Thread nD τ).loc main_arg7)) :=
  (W8_of_ne m ρ c main_arg7 (by decide)).trans (W7_arg7 h m ρ c)

/-! ## Layer 2 -/

theorem W9_v47 : W9 m ρ c (Proc.devRef .tc main_v47) = Cert.Spec.pre (Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3)))) (m ((c : Thread nD τ).loc main_arg4)) (ds2K (F := Ideal) (m ((c : Thread nD τ).loc main_arg1))) :=
  (W9_arr m ρ c 3).trans ((h.r2 (V8 m ρ) c).trans (by rw [show V8 m ρ c main_v46 = _ from W8_v46 h m ρ c, show V8 m ρ c main_arg4 = _ from W8_arg4 h m ρ c, show V8 m ρ c main_v17 = _ from W8_v17 h m ρ c]))

theorem W9_v17 : W9 m ρ c (Proc.devRef .tc main_v17) = (ds2K (F := Ideal) (m ((c : Thread nD τ).loc main_arg1))) :=
  (W9_arr m ρ c 2).trans (((dat2 (V8 m ρ) c).arrAt_in 2 rfl _).trans ((A_eq2 (V8 m ρ) c 2).trans (W8_v17 h m ρ c)))

theorem W9_v25 : W9 m ρ c (Proc.devRef .tc main_v25) = (sortedK (srcK (m ((c : Thread nD τ).loc main_arg1))) (m ((c : Thread nD τ).loc main_arg1))) :=
  (W9_of_ne m ρ c main_v25 (by decide)).trans (W8_v25 h m ρ c)

theorem W9_v32 : W9 m ρ c (Proc.devRef .tc main_v32) = (sortedK (dstK (m ((c : Thread nD τ).loc main_arg1))) (m ((c : Thread nD τ).loc main_arg1))) :=
  (W9_of_ne m ρ c main_v32 (by decide)).trans (W8_v32 h m ρ c)

theorem W9_arg5 : W9 m ρ c (Proc.devRef .tc main_arg5) = (m ((c : Thread nD τ).loc main_arg5)) :=
  (W9_of_ne m ρ c main_arg5 (by decide)).trans (W8_arg5 h m ρ c)

theorem W9_arg6 : W9 m ρ c (Proc.devRef .tc main_arg6) = (m ((c : Thread nD τ).loc main_arg6)) :=
  (W9_of_ne m ρ c main_arg6 (by decide)).trans (W8_arg6 h m ρ c)

theorem W9_arg7 : W9 m ρ c (Proc.devRef .tc main_arg7) = (m ((c : Thread nD τ).loc main_arg7)) :=
  (W9_of_ne m ρ c main_arg7 (by decide)).trans (W8_arg7 h m ρ c)

theorem W10_v58 : W10 m ρ c (Proc.devRef .tc main_v58) = aggK (F := Ideal) (Cert.Spec.pre (Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3)))) (m ((c : Thread nD τ).loc main_arg4)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1))) :=
  (h3_v58 (W9 m ρ c)).trans (by rw [W9_v47 h m ρ c, W9_v25 h m ρ c, W9_v32 h m ρ c])

theorem W10_v59 : W10 m ρ c (Proc.devRef .tc main_v59) = biasRow (F := Ideal) (m ((c : Thread nD τ).loc main_arg5)) :=
  (h3_v59 (W9 m ρ c)).trans (by rw [W9_arg5 h m ρ c])

theorem W10_v17 : W10 m ρ c (Proc.devRef .tc main_v17) = (ds2K (F := Ideal) (m ((c : Thread nD τ).loc main_arg1))) :=
  (h3_keep_v17 (W9 m ρ c)).trans (W9_v17 h m ρ c)

theorem W10_v25 : W10 m ρ c (Proc.devRef .tc main_v25) = (sortedK (srcK (m ((c : Thread nD τ).loc main_arg1))) (m ((c : Thread nD τ).loc main_arg1))) :=
  (h3_keep_v25 (W9 m ρ c)).trans (W9_v25 h m ρ c)

theorem W10_v32 : W10 m ρ c (Proc.devRef .tc main_v32) = (sortedK (dstK (m ((c : Thread nD τ).loc main_arg1))) (m ((c : Thread nD τ).loc main_arg1))) :=
  (h3_keep_v32 (W9 m ρ c)).trans (W9_v32 h m ρ c)

theorem W10_arg6 : W10 m ρ c (Proc.devRef .tc main_arg6) = (m ((c : Thread nD τ).loc main_arg6)) :=
  (h3_keep_arg6 (W9 m ρ c)).trans (W9_arg6 h m ρ c)

theorem W10_arg7 : W10 m ρ c (Proc.devRef .tc main_arg7) = (m ((c : Thread nD τ).loc main_arg7)) :=
  (h3_keep_arg7 (W9 m ρ c)).trans (W9_arg7 h m ρ c)

theorem W11_v60 : W11 m ρ c (Proc.devRef .tc main_v60) = Cert.Spec.postRelu (aggK (F := Ideal) (Cert.Spec.pre (Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3)))) (m ((c : Thread nD τ).loc main_arg4)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg5))) :=
  (W11_arr m ρ c 3).trans ((h.r3 (V10 m ρ) c).trans (by rw [show V10 m ρ c main_v58 = _ from W10_v58 h m ρ c, show V10 m ρ c main_v17 = _ from W10_v17 h m ρ c, show V10 m ρ c main_v59 = _ from W10_v59 h m ρ c]))

theorem W11_v17 : W11 m ρ c (Proc.devRef .tc main_v17) = (ds2K (F := Ideal) (m ((c : Thread nD τ).loc main_arg1))) :=
  (W11_arr m ρ c 1).trans (((dat3 (V10 m ρ) c).arrAt_in 1 rfl _).trans ((A_eq3 (V10 m ρ) c 1).trans (W10_v17 h m ρ c)))

theorem W11_v25 : W11 m ρ c (Proc.devRef .tc main_v25) = (sortedK (srcK (m ((c : Thread nD τ).loc main_arg1))) (m ((c : Thread nD τ).loc main_arg1))) :=
  (W11_of_ne m ρ c main_v25 (by decide)).trans (W10_v25 h m ρ c)

theorem W11_v32 : W11 m ρ c (Proc.devRef .tc main_v32) = (sortedK (dstK (m ((c : Thread nD τ).loc main_arg1))) (m ((c : Thread nD τ).loc main_arg1))) :=
  (W11_of_ne m ρ c main_v32 (by decide)).trans (W10_v32 h m ρ c)

theorem W11_arg6 : W11 m ρ c (Proc.devRef .tc main_arg6) = (m ((c : Thread nD τ).loc main_arg6)) :=
  (W11_of_ne m ρ c main_arg6 (by decide)).trans (W10_arg6 h m ρ c)

theorem W11_arg7 : W11 m ρ c (Proc.devRef .tc main_arg7) = (m ((c : Thread nD τ).loc main_arg7)) :=
  (W11_of_ne m ρ c main_arg7 (by decide)).trans (W10_arg7 h m ρ c)

/-! ## Layer 3 -/

theorem W12_v61 : W12 m ρ c (Proc.devRef .tc main_v61) = Cert.Spec.pre (Cert.Spec.postRelu (aggK (F := Ideal) (Cert.Spec.pre (Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3)))) (m ((c : Thread nD τ).loc main_arg4)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg5)))) (m ((c : Thread nD τ).loc main_arg6)) (ds2K (F := Ideal) (m ((c : Thread nD τ).loc main_arg1))) :=
  (W12_arr m ρ c 3).trans ((h.r4 (V11 m ρ) c).trans (by rw [show V11 m ρ c main_v60 = _ from W11_v60 h m ρ c, show V11 m ρ c main_arg6 = _ from W11_arg6 h m ρ c, show V11 m ρ c main_v17 = _ from W11_v17 h m ρ c]))

theorem W12_v17 : W12 m ρ c (Proc.devRef .tc main_v17) = (ds2K (F := Ideal) (m ((c : Thread nD τ).loc main_arg1))) :=
  (W12_arr m ρ c 2).trans (((dat4 (V11 m ρ) c).arrAt_in 2 rfl _).trans ((A_eq4 (V11 m ρ) c 2).trans (W11_v17 h m ρ c)))

theorem W12_v25 : W12 m ρ c (Proc.devRef .tc main_v25) = (sortedK (srcK (m ((c : Thread nD τ).loc main_arg1))) (m ((c : Thread nD τ).loc main_arg1))) :=
  (W12_of_ne m ρ c main_v25 (by decide)).trans (W11_v25 h m ρ c)

theorem W12_v32 : W12 m ρ c (Proc.devRef .tc main_v32) = (sortedK (dstK (m ((c : Thread nD τ).loc main_arg1))) (m ((c : Thread nD τ).loc main_arg1))) :=
  (W12_of_ne m ρ c main_v32 (by decide)).trans (W11_v32 h m ρ c)

theorem W12_arg7 : W12 m ρ c (Proc.devRef .tc main_arg7) = (m ((c : Thread nD τ).loc main_arg7)) :=
  (W12_of_ne m ρ c main_arg7 (by decide)).trans (W11_arg7 h m ρ c)

theorem W13_v72 : W13 m ρ c (Proc.devRef .tc main_v72) = aggK (F := Ideal) (Cert.Spec.pre (Cert.Spec.postRelu (aggK (F := Ideal) (Cert.Spec.pre (Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3)))) (m ((c : Thread nD τ).loc main_arg4)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg5)))) (m ((c : Thread nD τ).loc main_arg6)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1))) :=
  (h5_v72 (W12 m ρ c)).trans (by rw [W12_v61 h m ρ c, W12_v25 h m ρ c, W12_v32 h m ρ c])

theorem W13_v73 : W13 m ρ c (Proc.devRef .tc main_v73) = biasRow (F := Ideal) (m ((c : Thread nD τ).loc main_arg7)) :=
  (h5_v73 (W12 m ρ c)).trans (by rw [W12_arg7 h m ρ c])

theorem W13_v17 : W13 m ρ c (Proc.devRef .tc main_v17) = (ds2K (F := Ideal) (m ((c : Thread nD τ).loc main_arg1))) :=
  (h5_keep_v17 (W12 m ρ c)).trans (W12_v17 h m ρ c)

/-- THE RESULT ARRAY at the last boundary: the three layers composed, in the kernel's arrangement. -/
theorem W14_v74 : W14 m ρ c (Proc.devRef .tc main_v74) = Cert.Spec.post (aggK (F := Ideal) (Cert.Spec.pre (Cert.Spec.postRelu (aggK (F := Ideal) (Cert.Spec.pre (Cert.Spec.postRelu (aggK (F := Ideal) (Cert.Spec.pre (m ((c : Thread nD τ).loc main_arg0)) (m ((c : Thread nD τ).loc main_arg2)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg3)))) (m ((c : Thread nD τ).loc main_arg4)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg5)))) (m ((c : Thread nD τ).loc main_arg6)) (ds2K (F := Ideal) (m ((c : Thread nD τ).loc main_arg1)))) (sortedK (srcK (m ((c : Thread nD τ).loc main_arg1))) (m ((c : Thread nD τ).loc main_arg1))) (sortedK (dstK (m ((c : Thread nD τ).loc main_arg1))) (m ((c : Thread nD τ).loc main_arg1)))) (ds2K (F := Ideal) (m ((c : Thread nD τ).loc main_arg1))) (biasRow (F := Ideal) (m ((c : Thread nD τ).loc main_arg7))) :=
  (W14_arr m ρ c 3).trans ((h.r5 (V13 m ρ) c).trans (by rw [show V13 m ρ c main_v72 = _ from W13_v72 h m ρ c, show V13 m ρ c main_v17 = _ from W13_v17 h m ρ c, show V13 m ρ c main_v73 = _ from W13_v73 h m ρ c]))

end Cert.KernelIdeal.KChain

end
-- ==== Proof.LibDinv.lean ====
/-
  The inverse square root of a degree is a finite nonnegative real, and such a factor distributes over a sum.

  A degree is clipped below by one before its inverse square root is taken. Whatever extended real the degree is,
  `max d 1` is at least one: it is either `⊤`, whose inverse square root is `0`, or a real `x ≥ 1`, whose inverse
  square root is the real `(√x)⁻¹ ≥ 0`. The same holds after a select between that value and `0`.

  A finite nonnegative real factor distributes over any finite sum of extended reals (no `⊤ − ⊤` can arise from
  scaling by such a factor), which is what lets a scale applied to a scattered sum move inside the sum.
-/
import Idealize.ShloMosaic.PureOps.Ideal
import Idealize.ShloMosaic.Lib.ValueIdx

noncomputable section

open scoped BigOperators

namespace Cert.Lib

open Idealize.ShloMosaic Idealize.ShloMosaic.ValueIdx

/-- The inverse square root of an extended real that is at least one is a nonnegative real. -/
theorem rsqrt_ge_one_nonneg_real (m : EReal) (hm : 1 ≤ m) : ∃ r : ℝ, 0 ≤ r ∧ Ideal.rsqrt m = (r : EReal) := by
  induction m using EReal.rec with
  | bot =>
    have h1 : ((1 : ℝ) : EReal) ≠ ⊥ := EReal.coe_ne_bot 1
    rw [EReal.coe_one] at h1
    exact absurd (le_bot_iff.mp hm) h1
  | coe x =>
    have hx : (1 : ℝ) ≤ x := by exact_mod_cast hm
    refine ⟨(Real.sqrt x)⁻¹, inv_nonneg.mpr (Real.sqrt_nonneg x), ?_⟩
    rw [Ideal.rsqrt_coe, if_neg (by linarith), if_neg (by linarith)]
  | top => exact ⟨0, le_refl 0, by simp⟩

/-- THE INVERSE SQUARE ROOT OF A CLIPPED DEGREE is a nonnegative real, whatever the degree. -/
theorem rsqrt_max_one_nonneg_real (d : EReal) : ∃ r : ℝ, 0 ≤ r ∧ Ideal.rsqrt (max d 1) = (r : EReal) :=
  rsqrt_ge_one_nonneg_real (max d 1) (le_max_right d 1)

/-- … and so is a select between it and zero, whichever way the condition bit falls. -/
theorem select_rsqrt_nonneg_real (c : BitVec 1) (d : EReal) :
    ∃ r : ℝ, 0 ≤ r ∧ Scalar.select c (Ideal.rsqrt (max d 1)) (0 : EReal) = (r : EReal) := by
  have hc : ∀ c : BitVec 1, c = 0#1 ∨ c = 1#1 := by decide
  rcases hc c with rfl | rfl
  · exact ⟨0, le_refl 0, by rw [select_zero]; exact EReal.coe_zero.symm⟩
  · rw [select_one]
    exact rsqrt_max_one_nonneg_real d

/-- A NONNEGATIVE REAL FACTOR DISTRIBUTES OVER A FINITE SUM of extended reals. -/
theorem sum_mul_coe_nonneg {ι : Type} (s : Finset ι) (f : ι → EReal) (r : ℝ) (hr : 0 ≤ r) :
    (∑ e ∈ s, f e) * (r : EReal) = ∑ e ∈ s, f e * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

end Cert.Lib

end
-- ==== Proof.Law.lean ====
/-
  The law that joins the two arrangements of one graph convolution.

  The kernel scales row `r` of `a · W` by `ds r` before the gather, sums over the edges landing on node `n` in the
  order an argsort gives, and scales the sum by `ds n`; the reference multiplies each gathered row by
  `ds (row of src) · ds (row of dst)` and sums in the given order. They agree on the extended reals because
  (1) a finite sum does not depend on the order of its terms: the sorted edge list is the given one read through a
      permutation `σ`, and the edges landing on `n` correspond under `σ`;
  (2) a finite NONNEGATIVE real factor distributes over any sum of extended reals (an infinite factor would not:
      (1 + (-1)) · ⊤ = 0 but 1 · ⊤ + (-1) · ⊤ = ⊥), and `ds n` is such a factor;
  (3) an edge that lands on `n` has a destination entry that IS `n`, so the wrap of a negative entry and the clamp
      leave it alone: the row a gather reads for it is `n`;
  (4) multiplication of extended reals is associative.
-/
import proofs.«117999_j30562987278370_2_alg».proof.Proof.Spec
import proofs.«117999_j30562987278370_2_alg».proof.Proof.LibDinv

set_option maxRecDepth 16384

noncomputable section

open scoped BigOperators

namespace Cert.Law

open Idealize.ShloMosaic Idealize.ShloMosaic.ValueIdx Cert.Spec

/-- An entry that, read signed, is the number of a node is not negative: the wrap leaves it alone. -/
theorem wrapAt_of_toInt (v : BitVec 32) (n : Fin 100000) (h : v.toInt = (n.val : Int)) : wrapAt 100000#32 v = v := by
  unfold wrapAt
  have hn : ¬ (v.slt 0#32) = true := by
    rw [BitVec.slt]
    simp only [BitVec.toInt_zero, decide_eq_true_eq, not_lt]
    rw [h]; omega
  have : IntOp.cmpi .slt v 0#32 = 0#1 := by
    unfold IntOp.cmpi
    simp [hn]
  rw [this]
  exact select_zero _ _

/-- The row a gather reads for an edge landing on node `n` is `n`. -/
theorem rowOfEdge_of_lands (dst : IVec ⟨1, ![700000]⟩ 32) (n : Fin 100000) (e : Fin 700000) (he : e ∈ lands dst n) :
    rowOfEdge dst e = n := by
  have h : (dst (ix1 e)).toInt = (n.val : Int) := (Finset.mem_filter.mp he).2
  unfold rowOfEdge
  rw [wrapAt_of_toInt _ n h]
  unfold rowAt
  refine Fin.ext ?_
  show min (dst (ix1 e)).toInt.toNat (100000 - 1) = n.val
  rw [h]
  have := n.isLt
  omega

/-- The edges of the sorted list landing on `n` are the preimages under the sorting permutation of the given
    list's edges landing on `n`. -/
theorem lands_sorted (dst dstS : IVec ⟨1, ![700000]⟩ 32) (σ : Equiv.Perm (Fin 700000))
    (hd : ∀ e, dstS (ix1 e) = dst (ix1 (σ e))) (n : Fin 100000) :
    lands dstS n = (lands dst n).map σ.symm.toEmbedding := by
  ext e
  simp only [lands, Finset.mem_filter, Finset.mem_univ, true_and, Finset.mem_map, Equiv.coe_toEmbedding]
  constructor
  · intro h
    exact ⟨σ e, by rw [← hd e]; exact h, σ.symm_apply_apply e⟩
  · rintro ⟨e', h, rfl⟩
    rw [hd, σ.apply_symm_apply]
    exact h

/-- THE LAYER LAW at `(n, j)`: the kernel's arrangement of one graph convolution — pre-scaled rows gathered along the
    sorted edge list, summed per destination, post-scaled, biased — is the reference's. -/
theorem layer_law (src dst srcS dstS : IVec ⟨1, ![700000]⟩ 32) (σ : Equiv.Perm (Fin 700000))
    (hs : ∀ e, srcS (ix1 e) = src (ix1 (σ e))) (hd : ∀ e, dstS (ix1 e) = dst (ix1 (σ e)))
    (ds : (⟨1, ![100000]⟩ : Shape).Idx → EReal) (hds : ∀ n : Fin 100000, ∃ r : ℝ, 0 ≤ r ∧ ds (ix1 n) = (r : EReal))
    (a : (⟨2, ![100000, 128]⟩ : Shape).Idx → EReal) (W : (⟨2, ![128, 128]⟩ : Shape).Idx → EReal)
    (b : (⟨1, ![128]⟩ : Shape).Idx → EReal) (n : Fin 100000) (j : Fin 128) :
    (∑ e ∈ lands dstS n, mm a W (rowOfEdge srcS e) j * ds (ix1 (rowOfEdge srcS e))) * ds (ix1 n) + b (ix1 j)
      = layerAt src dst ds a W b n j := by
  obtain ⟨r, hr, hrn⟩ := hds n
  unfold layerAt
  refine congrArg (fun s => s + b (ix1 j)) ?_
  rw [hrn, Cert.Lib.sum_mul_coe_nonneg _ _ r hr, lands_sorted dst dstS σ hd n, Finset.sum_map]
  refine Finset.sum_congr rfl fun e he => ?_
  have hrow : rowOfEdge srcS (σ.symm.toEmbedding e) = rowOfEdge src e := by
    unfold rowOfEdge
    rw [Equiv.coe_toEmbedding, hs, σ.apply_symm_apply]
  rw [hrow, rowOfEdge_of_lands dst n e he, hrn, mul_assoc]

end Cert.Law

end
-- ==== Proof.LibRows.lean ====
/-
  Row gather and row scatter-add, read at an index.

  `x[idx]` along axis 0 of a two-dimensional array `x : [N, D]` at a column `idx : [E, 1]` of row numbers takes,
  for each of the `E` entries, the whole row the entry names: entry `e` is read as a signed integer and clamped
  into `[0, N − 1]`. The accumulating scatter with the same dimension numbers adds row `e` of the updates
  `[E, D]` into the row of the operand that entry `e` names, and drops it when the entry names no row (the start
  is read signed and is not clamped). Neither the row a gather reads nor the set of updates landing on a row
  depends on the width `D`.
-/
import Idealize.ShloMosaic.PureOps.Ideal
import Idealize.ShloMosaic.Lib.ValueIdx

noncomputable section

open scoped BigOperators

namespace Cert.Lib

open Idealize.ShloMosaic Idealize.ShloMosaic.ValueIdx

/-- The dimension numbers of a gather of whole rows of `[N, D]` at row numbers `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row entry `e` of the row numbers reads: the entry as a signed integer, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, j)`: column `j` of the row that entry `e` names. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (rowOf hN idx e) j) := by
  unfold Host.gather
  congr 1
  funext a
  refine Fin.ext ?_
  match a with
  | ⟨0, _⟩ =>
    -- axis 0 is collapsed and named by the start index map: the clamped start alone
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e j) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: start 0, and the result's coordinate on its own axis 1
    show (rowGatherDims N E D wf).start (ix2 e j) idx 1 + (rowGatherDims N E D wf).batchCoord (ix2 e j) 1
      + (rowGatherDims N E D wf).offCoord (ix2 e j) 1 = _
    have hne : (1 : Fin 2) ∉ [(0 : Fin 2)] := by decide
    have hstart : (rowGatherDims N E D wf).start (ix2 e j) idx 1 = 0 := by
      unfold GatherDims.start
      rw [dif_neg (show (1 : Fin 2) ∉ (rowGatherDims N E D wf).startIndexMap from hne)]
    have hk : (1 : Fin 2) ∈ (rowGatherDims N E D wf).sKept :=
      (GatherDims.mem_sKept _ _).mpr ⟨hne, List.not_mem_nil⟩
    have hoff : (rowGatherDims N E D wf).offCoord (ix2 e j) 1 = j.val := by
      unfold GatherDims.offCoord
      rw [dif_pos hk]
      rfl
    rw [hstart, GatherDims.batchCoord_eq_zero _ _ _ List.not_mem_nil, hoff]
    show 0 + 0 + j.val = j.val
    omega

/-- The dimension numbers of a scatter of whole rows `[E, D]` into `[N, D]` at row numbers `[E, 1]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-! The start and the window coordinate of update index `(e, k)` on the operand's two axes. -/

/-- On axis 0 the window starts at entry `e` of the row numbers, read signed. -/
private theorem start0 {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e k)
      ⟨List.idxOf (0 : Fin 2) (rowScatterDims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not named by the scatter-dims-to-operand-dims map: the window starts at 0. -/
private theorem start1 {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx (1 : Fin 2) = 0 := by
  have hne : (1 : Fin 2) ∉ [(0 : Fin 2)] := by decide
  unfold ScatterDims.start
  rw [dif_neg (show (1 : Fin 2) ∉ (rowScatterDims N E D wf).scatterDimsToOperandDims from hne)]

/-- Axis 0 is an inserted window axis: its window coordinate is 0. -/
private theorem window0 {N E D : Nat}
    (wf : ScatterDims.WF ⟨2, ![N, D]⟩ ⟨2, ![E, 1]⟩ ⟨2, ![E, D]⟩ [1] [0] [0] 1) (e : Fin E) (k : Fin D) :
    (rowScatterDims N E D wf).window (ix2 e k) (0 : Fin 2) = 0 := by
  have hne : (0 : Fin 2) ∉ (List.finRange 2).filter (· ∉ [(0 : Fin 2)]) := by decide
  unfold ScatterDims.window
  rw [dif_neg (show (0 : Fin 2) ∉ (rowScatterDims N E D wf).sKept from hne)]

/-- Axis 1 is the one kept axis: its window coordinate is the update's column. -/
private theorem window1 {N E D : Nat}
    (wf : ScatterDims.WF ⟨2, ![N, D]⟩ ⟨2, ![E, 1]⟩ ⟨2, ![E, D]⟩ [1] [0] [0] 1) (e : Fin E) (k : Fin D) :
    (rowScatterDims N E D wf).window (ix2 e k) (1 : Fin 2) = k.val := by
  have hmem : (1 : Fin 2) ∈ (List.finRange 2).filter (· ∉ [(0 : Fin 2)]) := by decide
  unfold ScatterDims.window
  rw [dif_pos (show (1 : Fin 2) ∈ (rowScatterDims N E D wf).sKept from hmem)]
  rfl

/-- The entries whose row number, read signed, is exactly `r`: the updates that land on row `r`. -/
def landing {N E w : Nat} (idx : IVec ⟨2, ![E, 1]⟩ w) (r : Fin N) : Finset (Fin E) :=
  Finset.univ.filter fun e => (idx (ix2 e (0 : Fin 1))).toInt = (r.val : Int)

/-- Update index `(e, k)` lands on operand index `(r, j)` exactly when entry `e`, read signed, is `r` and the
    columns agree: on axis 0 the result coordinate is the unclamped start, on axis 1 it is the update's column. -/
private theorem resultIdx_eq_some_iff {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) (r : Fin N) (j : Fin D) :
    (rowScatterDims N E D wf).resultIdx? (ix2 e k) idx = some (ix2 r j)
      ↔ (idx (ix2 e (0 : Fin 1))).toInt = (r.val : Int) ∧ k = j := by
  unfold ScatterDims.resultIdx?
  constructor
  · intro h
    split at h
    · rename_i hall
      have hf := Option.some.inj h
      have h0 : ((rowScatterDims N E D wf).start (ix2 e k) idx (0 : Fin 2)
          + ((rowScatterDims N E D wf).window (ix2 e k) (0 : Fin 2) : Int)).toNat = r.val :=
        congrArg (fun f => (f (0 : Fin 2)).val) hf
      have h1 : ((rowScatterDims N E D wf).start (ix2 e k) idx (1 : Fin 2)
          + ((rowScatterDims N E D wf).window (ix2 e k) (1 : Fin 2) : Int)).toNat = j.val :=
        congrArg (fun f => (f (1 : Fin 2)).val) hf
      have a0 : 0 ≤ (rowScatterDims N E D wf).start (ix2 e k) idx (0 : Fin 2)
          + ((rowScatterDims N E D wf).window (ix2 e k) (0 : Fin 2) : Int) := (hall (0 : Fin 2)).1
      rw [start0, window0] at h0 a0
      rw [start1, window1] at h1
      exact ⟨by omega, Fin.ext (by omega)⟩
    · exact absurd h (by simp)
  · rintro ⟨ht, rfl⟩
    have hall : ∀ a, 0 ≤ (rowScatterDims N E D wf).start (ix2 e k) idx a + ((rowScatterDims N E D wf).window (ix2 e k) a : Int)
        ∧ (rowScatterDims N E D wf).start (ix2 e k) idx a + ((rowScatterDims N E D wf).window (ix2 e k) a : Int)
          < ((⟨2, ![N, D]⟩ : Shape).size a : Int) := by
      intro a
      match a with
      | ⟨0, _⟩ =>
        show 0 ≤ (rowScatterDims N E D wf).start (ix2 e k) idx (0 : Fin 2)
            + ((rowScatterDims N E D wf).window (ix2 e k) (0 : Fin 2) : Int)
          ∧ (rowScatterDims N E D wf).start (ix2 e k) idx (0 : Fin 2)
            + ((rowScatterDims N E D wf).window (ix2 e k) (0 : Fin 2) : Int) < (N : Int)
        rw [start0, window0, ht]
        have := r.isLt
        omega
      | ⟨1, _⟩ =>
        show 0 ≤ (rowScatterDims N E D wf).start (ix2 e k) idx (1 : Fin 2)
            + ((rowScatterDims N E D wf).window (ix2 e k) (1 : Fin 2) : Int)
          ∧ (rowScatterDims N E D wf).start (ix2 e k) idx (1 : Fin 2)
            + ((rowScatterDims N E D wf).window (ix2 e k) (1 : Fin 2) : Int) < (D : Int)
        rw [start1, window1]
        have := k.isLt
        omega
    rw [dif_pos hall]
    congr 1
    funext a
    refine Fin.ext ?_
    match a with
    | ⟨0, _⟩ =>
      show ((rowScatterDims N E D wf).start (ix2 e k) idx (0 : Fin 2)
          + ((rowScatterDims N E D wf).window (ix2 e k) (0 : Fin 2) : Int)).toNat = r.val
      rw [start0, window0, ht]
      omega
    | ⟨1, _⟩ =>
      show ((rowScatterDims N E D wf).start (ix2 e k) idx (1 : Fin 2)
          + ((rowScatterDims N E D wf).window (ix2 e k) (1 : Fin 2) : Int)).toNat = k.val
      rw [start1, window1]
      omega

/-- THE ACCUMULATING ROW SCATTER READ AT `(r, j)`, over the extended reals: the operand's entry plus column `j`
    of every update row landing on row `r`. -/
theorem scatterAdd_rows_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (r : Fin N) (j : Fin D) :
    Ideal.hostScatterAdd (rowScatterDims N E D wf) x idx upd (ix2 r j)
      = x (ix2 r j) + ∑ e ∈ landing idx r, upd (ix2 e j) := by
  unfold Ideal.hostScatterAdd
  congr 1
  -- the update indices landing on `(r, j)` are the `(e, j)` with `e` landing on row `r`: re-index by `e`
  have key : ∀ u : (⟨2, ![E, D]⟩ : Shape).Idx,
      (rowScatterDims N E D wf).resultIdx? u idx = some (ix2 r j)
        ↔ (idx (ix2 (u 0) (0 : Fin 1))).toInt = (r.val : Int) ∧ u 1 = j := by
    intro u
    conv_lhs => rw [eq_ix2 u]
    exact resultIdx_eq_some_iff wf idx (u 0) (u 1) r j
  refine Finset.sum_nbij' (fun u => u 0) (fun e => ix2 e j) ?_ ?_ ?_ ?_ ?_
  · intro u hu
    have h := (key u).mp (Finset.mem_filter.mp hu).2
    exact Finset.mem_filter.mpr ⟨Finset.mem_univ _, h.1⟩
  · intro e he
    have h := (Finset.mem_filter.mp he).2
    exact Finset.mem_filter.mpr ⟨Finset.mem_univ _, (key (ix2 e j)).mpr ⟨h, rfl⟩⟩
  · intro u hu
    have h := (key u).mp (Finset.mem_filter.mp hu).2
    rw [← h.2]
    exact (eq_ix2 u).symm
  · intro e _
    rfl
  · intro u hu
    have h := (key u).mp (Finset.mem_filter.mp hu).2
    rw [← h.2]
    exact congrArg upd (eq_ix2 u)

end Cert.Lib

end
-- ==== Proof.LibGather1.lean ====
/-
  A gather of single entries of a vector, read at an index.

  `v[idx]` on a one-dimensional array `v : [N]` at a column `idx : [E, 1]` of positions takes, for each of the
  `E` entries, the one element the entry names: entry `e` is read as a signed integer and clamped into
  `[0, N − 1]`. The operand's only axis is collapsed, so the result has no offset axis and its single axis is the
  batch axis running over the entries.
-/
import Idealize.ShloMosaic.PureOps.Ideal
import Idealize.ShloMosaic.Lib.ValueIdx
import proofs.«117999_j30562987278370_2_alg».proof.Proof.LibRows

noncomputable section

namespace Cert.Lib

open Idealize.ShloMosaic Idealize.ShloMosaic.ValueIdx

/-- The dimension numbers of a gather of single entries of `[N]` at positions `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the element of `x` at the position entry `e` names, that entry read as a
    signed integer and clamped into `[0, N − 1]` (`rowOf`). -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf hN idx e)) := by
  unfold Host.gather
  congr 1
  funext a
  refine Fin.ext ?_
  match a with
  | ⟨0, _⟩ =>
    -- the only axis is collapsed and named by the start index map: the clamped start alone
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibSort.lean ====
/-
  An argsort is a permutation, and a small position is its own wrapped and clamped row.

  An argsort of `keys` sorts the pairs (key, position) along the one axis by a comparator on the pairs and keeps the
  second components. On a one-dimensional array the stable sort reads both operands through ONE self-map of the
  positions — the sorting permutation of a relation on positions, which does not depend on where it is read — and
  that self-map is a bijection. So entry `e` of the argsort is the word of `σ e` for a permutation `σ` of the
  positions, whatever the keys and whatever the comparator.

  A word `k` below an axis length `n < 2³¹` is not negative when read signed, so the wrap of a negative index
  (`v < 0 ↦ v + n`) leaves it alone, and the clamp into `[0, n − 1]` does too.
-/
import Idealize.ShloMosaic.PureOps.Ideal
import Idealize.ShloMosaic.Lib.ValueIdx
import Idealize.ShloMosaic.Lib.SortFacts
import proofs.«117999_j30562987278370_2_alg».proof.Proof.Spec

namespace Cert.Lib

open Idealize.ShloMosaic Idealize.ShloMosaic.ValueIdx

/-- On a one-dimensional shape the second component of a two-operand sort along axis 0 reads its operand through
    the sorting permutation of the comparator on the pairs at the positions. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A PERMUTATION: entry `e` of the positions carried through a sort of (key, position) pairs is the
    word of `σ e`, for one permutation `σ` of the positions. -/
theorem argsort_perm {n : Nat} {α : Type} (cmp : α × BitVec 32 → α × BitVec 32 → BitVec 1)
    (keys : (⟨1, ![n]⟩ : Shape).Idx → α) :
    ∃ σ : Equiv.Perm (Fin n), ∀ e : Fin n,
      (Host.sort2 ⟨1, ![n]⟩ 0 cmp keys (iotaInDim ⟨1, ![n]⟩ 32 0)).2 (ix1 e) = BitVec.ofNat 32 (σ e).val := by
  refine ⟨Equiv.ofBijective
    (sortedFrom (fun k k' => cmp (keys (Shape.Idx.ofFin k), iotaInDim ⟨1, ![n]⟩ 32 0 (Shape.Idx.ofFin k))
      (keys (Shape.Idx.ofFin k'), iotaInDim ⟨1, ![n]⟩ 32 0 (Shape.Idx.ofFin k')) == 1#1))
    ⟨sortedFrom_injective _, sortedFrom_surjective _⟩, fun e => ?_⟩
  rw [sort2_rank1_snd]
  rfl

/-- A word `k < n < 2³¹` is its own row after the wrap by `n` and the clamp into `[0, n − 1]`. -/
theorem clamp_wrap_ofNat (n k : Nat) (hk : k < n) (hn : n < 2 ^ 31) :
    min (Cert.Spec.wrapAt (BitVec.ofNat 32 n) (BitVec.ofNat 32 k)).toInt.toNat (n - 1) = k := by
  have htn : (BitVec.ofNat 32 k).toNat = k := by
    rw [BitVec.toNat_ofNat]; exact Nat.mod_eq_of_lt (by omega)
  -- read signed, the word is `k`: it is below 2³¹
  have hti : (BitVec.ofNat 32 k).toInt = (k : Int) := by
    rw [BitVec.toInt_eq_toNat_cond, htn, if_pos (by omega)]
  have hslt : (BitVec.ofNat 32 k).slt 0#32 = false := by
    rw [BitVec.slt, hti, BitVec.toInt_zero]
    exact decide_eq_false (by omega)
  -- so the comparison with 0 fails and the wrap keeps the word
  have hw : Cert.Spec.wrapAt (BitVec.ofNat 32 n) (BitVec.ofNat 32 k) = BitVec.ofNat 32 k := by
    unfold Cert.Spec.wrapAt
    have hc : IntOp.cmpi .slt (BitVec.ofNat 32 k) 0#32 = 0#1 := by
      show BitVec.ofBool ((BitVec.ofNat 32 k).slt 0#32) = 0#1
      rw [hslt]; rfl
    rw [hc, select_zero]
  rw [hw, hti]
  omega

end Cert.Lib
-- ==== Proof.KLayer.lean ====
/-
  One layer of the kernel program is one layer of the specification.

  Read at an index, over the extended reals:
  * the aggregation stretch gathers, for every edge landing on node `n`, the row of its operand that the wrapped and
    clamped source entry names, and sums them (a row gather and an accumulating row scatter from zero);
  * an entry vector read along the argsort's order is the vector read through a PERMUTATION of the edge positions
    (a stable sort permutes; the positions it carries are below 2³¹, so neither the wrap nor the clamp moves them);
  * the scale `ds` is, at every node, a finite nonnegative real: zero, or the inverse square root of something at
    least one.
  With these the kernel's arrangement of a layer — projection rows pre-scaled, aggregated along the sorted edges,
  post-scaled, biased — is `Cert.Spec.layer`, by the layer law (Proof/Law.lean).
-/
import proofs.«117999_j30562987278370_2_alg».proof.Proof.KHost
import proofs.«117999_j30562987278370_2_alg».proof.Proof.Spec
import proofs.«117999_j30562987278370_2_alg».proof.Proof.Law
import proofs.«117999_j30562987278370_2_alg».proof.Proof.LibRows
import proofs.«117999_j30562987278370_2_alg».proof.Proof.LibGather1
import proofs.«117999_j30562987278370_2_alg».proof.Proof.LibSort
import proofs.«117999_j30562987278370_2_alg».proof.Proof.LibDinv
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.KLayer

open Cert.KernelIdeal Cert.KernelIdeal.Gen Cert.KernelIdeal.KHost
open Idealize.ShloMosaic Idealize.ShloMosaic.ValueIdx

/-! ## Entry vectors at an index -/

/-- The column of an entry vector at `(e, 0)` is the entry. -/
theorem colV_apply (v : IVec S700000 32) (e : Fin 700000) : colV v (ix2 e (0 : Fin 1)) = v (ix1 e) := by
  unfold colV
  exact broadcastInDim_apply _ bcast_S700000_S700000x1_0 v (ix2 e (0 : Fin 1)) (ix1 e) (fun a => match a with
    | ⟨0, _⟩ => by show e.val = if (700000 : Nat) = 1 then 0 else e.val; rw [if_neg (by decide)])

/-- The wrapped vector at an entry is the wrapped entry. -/
theorem wrapV_apply (n : BitVec 32) (v : IVec S700000 32) (e : Fin 700000) :
    wrapV n v (ix1 e) = Cert.Spec.wrapAt n (v (ix1 e)) := by
  unfold wrapV Cert.Spec.wrapAt
  rw [select_apply]
  have h0 : (broadcastInDim S700000 ![] bcast_S_S700000 (constantI S_ 32 0#32) : IVec S700000 32) (ix1 e) = 0#32 :=
    broadcastInDim_apply _ bcast_S_S700000 (constantI S_ 32 0#32) (ix1 e) (fun a => a.elim0) (fun a => a.elim0)
  have hn : (broadcastInDim S700000 ![] bcast_S_S700000 (constantI S_ 32 n) : IVec S700000 32) (ix1 e) = n :=
    broadcastInDim_apply _ bcast_S_S700000 (constantI S_ 32 n) (ix1 e) (fun a => a.elim0) (fun a => a.elim0)
  show Scalar.select (IntOp.cmpi .slt (v (ix1 e)) ((broadcastInDim S700000 ![] bcast_S_S700000 (constantI S_ 32 0#32) : IVec S700000 32) (ix1 e)))
      (IntOp.addi (v (ix1 e)) ((broadcastInDim S700000 ![] bcast_S_S700000 (constantI S_ 32 n) : IVec S700000 32) (ix1 e))) (v (ix1 e)) = _
  rw [h0, hn]

/-- The row a gather reads through the wrapped column of a node-entry vector is `Cert.Spec.rowOfEdge`. -/
theorem rowOf_wrapped (ent : IVec S700000 32) (e : Fin 700000) :
    Cert.Lib.rowOf (N := 100000) (by norm_num) (colV (wrapV 100000#32 ent)) e = Cert.Spec.rowOfEdge ent e := by
  refine Fin.ext ?_
  show min ((colV (wrapV 100000#32 ent)) (ix2 e (0 : Fin 1))).toInt.toNat (100000 - 1)
    = min (Cert.Spec.wrapAt 100000#32 (ent (ix1 e))).toInt.toNat (100000 - 1)
  rw [colV_apply, wrapV_apply]

/-- The edges whose column entry lands on node `n` are `Cert.Spec.lands`. -/
theorem landing_col (dstS : IVec S700000 32) (n : Fin 100000) :
    Cert.Lib.landing (colV dstS) n = Cert.Spec.lands dstS n := by
  unfold Cert.Lib.landing Cert.Spec.lands
  refine Finset.filter_congr fun e _ => ?_
  rw [colV_apply]

/-! ## The aggregation at an index -/

/-- The accumulating row scatter of this program at `(n, j)`: the operand's entry plus column `j` of every update row
    whose entry is `n`. -/
theorem scatter_rows_at (x : FVec Ideal S100000x128 .f32) (idx : IVec S700000x1 32) (upd : FVec Ideal S700000x128 .f32)
    (n : Fin 100000) (j : Fin 128) :
    Host.scatterAdd scatter_S100000x128_S700000x1_S700000x128_1_0_0_1 x idx upd (ix2 n j)
      = x (ix2 n j) + ∑ e ∈ Cert.Lib.landing idx n, upd (ix2 e j) :=
  Cert.Lib.scatterAdd_rows_apply (N := 100000) (E := 700000) (D := 128)
    scatter_S100000x128_S700000x1_S700000x128_1_0_0_1_wf x idx upd n j

/-- The row gather of this program at `(e, j)`: column `j` of the row that entry `e` names. -/
theorem gather_rows_at (hs : FVec Ideal S100000x128 .bf16) (idx : IVec S700000x1 32) (e : Fin 700000) (j : Fin 128) :
    Host.gather gather_S100000x128_S700000x1_S700000x128_1_0_n_n_0_1_1128 hs idx (ix2 e j)
      = hs (ix2 (Cert.Lib.rowOf (N := 100000) (by norm_num) idx e) j) :=
  Cert.Lib.gather_rows_apply (N := 100000) (E := 700000) (D := 128) (by norm_num)
    gather_S100000x128_S700000x1_S700000x128_1_0_n_n_0_1_1128_wf hs idx e j

/-- The scatter's operand is zero everywhere. -/
theorem zeros_at (n : Fin 100000) (j : Fin 128) :
    (broadcastInDim S100000x128 ![] bcast_S_S100000x128 (constant (F := Ideal) S_ .f32 0x00000000#32) : FVec Ideal S100000x128 .f32) (ix2 n j) = 0 :=
  (broadcastInDim_apply _ bcast_S_S100000x128 (constant (F := Ideal) S_ .f32 0x00000000#32) (ix2 n j) (fun a => a.elim0) (fun a => a.elim0)).trans
    ((constant_apply (s := S_) (φ := .f32) 0x00000000#32 _).trans Ideal.ofBits_zero_f32)

/-- THE AGGREGATION at `(n, j)`: the sum, over the edges landing on `n`, of column `j` of the operand's row that the
    edge's source entry names. -/
theorem aggK_apply (hs : FVec Ideal S100000x128 .bf16) (srcS dstS : IVec S700000 32) (n : Fin 100000) (j : Fin 128) :
    aggK (F := Ideal) hs srcS dstS (ix2 n j) = ∑ e ∈ Cert.Spec.lands dstS n, hs (ix2 (Cert.Spec.rowOfEdge srcS e) j) := by
  unfold aggK
  rw [scatter_rows_at, zeros_at, zero_add, landing_col]
  refine Finset.sum_congr rfl fun e _ => ?_
  rw [extf_apply, gather_rows_at, rowOf_wrapped]

/-! ## The sorted entries are the entries read through a permutation -/

/-- One permutation of the edge positions reads both entry vectors along the argsort's order. -/
theorem sorted_perm (x1 : IVec S2x600000 32) :
    ∃ σ : Equiv.Perm (Fin 700000), ∀ (ent : IVec S700000 32) (e : Fin 700000), sortedK ent x1 (ix1 e) = ent (ix1 (σ e)) := by
  obtain ⟨σ, hσ⟩ := Cert.Lib.argsort_perm (n := 700000) comparator_i32_i32_d0 (dstK x1)
  refine ⟨σ, fun ent e => ?_⟩
  unfold sortedK
  refine (Cert.Lib.gather_vec_apply (N := 700000) (E := 700000) (by norm_num)
    gather_S700000_S700000x1_S700000_n_0_n_n_0_1_1_wf ent (colV (wrapV 700000#32 (orderK x1))) e).trans ?_
  refine congrArg (fun r => ent (ix1 r)) (Fin.ext ?_)
  show min ((colV (wrapV 700000#32 (orderK x1))) (ix2 e (0 : Fin 1))).toInt.toNat (700000 - 1) = (σ e).val
  rw [colV_apply, wrapV_apply]
  have ho : orderK x1 (ix1 e) = BitVec.ofNat 32 (σ e).val := hσ e
  rw [ho]
  exact Cert.Lib.clamp_wrap_ofNat 700000 (σ e).val (σ e).isLt (by norm_num)

/-! ## The scale -/

/-- The scale column at `(n, 0)` is the scale at `n`. -/
theorem ds2K_apply (x1 : IVec S2x600000 32) (n : Fin 100000) :
    ds2K (F := Ideal) x1 (ix2 n (0 : Fin 1)) = dsK (F := Ideal) x1 (ix1 n) := by
  unfold ds2K
  exact shapeCast_apply _ shapeCasts_S100000_S100000x1 (ix2 n (0 : Fin 1)) (ix1 n) (by
    rw [Shape.rowMajor_val_two, Shape.rowMajor_val_one]
    show n.val = n.val * 1 + 0
    omega)

/-- The scale at every node is a finite nonnegative real. -/
theorem dsK_nonneg (x1 : IVec S2x600000 32) (n : Fin 100000) :
    ∃ r : ℝ, 0 ≤ r ∧ dsK (F := Ideal) x1 (ix1 n) = (r : EReal) := by
  unfold dsK
  rw [select_apply]
  have h1 : (broadcastInDim S100000 ![] bcast_S_S100000 (constant (F := Ideal) S_ .f32 0x3F800000#32) : FVec Ideal S100000 .f32) (ix1 n) = 1 :=
    (broadcastInDim_apply _ bcast_S_S100000 (constant (F := Ideal) S_ .f32 0x3F800000#32) (ix1 n) (fun a => a.elim0) (fun a => a.elim0)).trans
      ((constant_apply (s := S_) (φ := .f32) 0x3F800000#32 _).trans Ideal.ofBits_one_f32)
  have h0 : (broadcastInDim S100000 ![] bcast_S_S100000 (id (constant (F := Ideal) S_ .f32 0x00000000#32)) : FVec Ideal S100000 .f32) (ix1 n) = 0 :=
    (broadcastInDim_apply _ bcast_S_S100000 (id (constant (F := Ideal) S_ .f32 0x00000000#32)) (ix1 n) (fun a => a.elim0) (fun a => a.elim0)).trans
      ((constant_apply (s := S_) (φ := .f32) 0x00000000#32 _).trans Ideal.ofBits_zero_f32)
  have hr : ∀ (a b : FVec Ideal S100000 .f32) (i : S100000.Idx),
      Host.rsqrt (maximumf a b) i = Ideal.rsqrt (max (a i) (b i)) := fun _ _ _ => rfl
  rw [h0, hr, h1]
  exact Cert.Lib.select_rsqrt_nonneg_real _ _

/-- A bias row at `(0, j)` is the bias at `j`. -/
theorem biasRow_apply (b : FVec Ideal S128 .f32) (j : Fin 128) : biasRow (F := Ideal) b (ix2 (0 : Fin 1) j) = b (ix1 j) := by
  unfold biasRow
  exact shapeCast_a_1a_apply b shapeCasts_S128_S1x128 (0 : Fin 1) j

/-! ## A layer -/

/-- THE KERNEL'S LAYER IS THE SPECIFICATION'S, before the activation: projection rows pre-scaled by `ds`, aggregated
    along the sorted edge list, post-scaled, biased. -/
theorem layer_eq (x1 : IVec S2x600000 32) (a : (⟨2, ![100000, 128]⟩ : Shape).Idx → EReal)
    (W : (⟨2, ![128, 128]⟩ : Shape).Idx → EReal) (b : FVec Ideal S128 .f32) :
    Cert.Spec.post (aggK (F := Ideal) (Cert.Spec.pre a W (ds2K (F := Ideal) x1)) (sortedK (srcK x1) x1) (sortedK (dstK x1) x1))
        (ds2K (F := Ideal) x1) (biasRow (F := Ideal) b)
      = Cert.Spec.layer (srcK x1) (dstK x1) (dsK (F := Ideal) x1) a W b := by
  obtain ⟨σ, hσ⟩ := sorted_perm x1
  funext i
  obtain ⟨n, j, rfl⟩ : ∃ (n : Fin 100000) (j : Fin 128), i = ix2 n j := ⟨i 0, i 1, eq_ix2 i⟩
  show aggK (F := Ideal) (Cert.Spec.pre a W (ds2K (F := Ideal) x1)) (sortedK (srcK x1) x1) (sortedK (dstK x1) x1) (ix2 n j)
      * ds2K (F := Ideal) x1 (ix2 n (0 : Fin 1)) + biasRow (F := Ideal) b (ix2 (0 : Fin 1) j)
    = Cert.Spec.layerAt (srcK x1) (dstK x1) (dsK (F := Ideal) x1) a W b n j
  rw [aggK_apply, ds2K_apply, biasRow_apply]
  refine Eq.trans ?_ (Cert.Law.layer_law (srcK x1) (dstK x1) (sortedK (srcK x1) x1) (sortedK (dstK x1) x1) σ
    (hσ (srcK x1)) (hσ (dstK x1)) (dsK (F := Ideal) x1) (dsK_nonneg x1) a W b n j)
  refine congrArg (fun s => s * dsK (F := Ideal) x1 (ix1 n) + b (ix1 j)) ?_
  refine Finset.sum_congr rfl fun e _ => ?_
  show Cert.Spec.mm a W (Cert.Spec.rowOfEdge (sortedK (srcK x1) x1) e) j
      * ds2K (F := Ideal) x1 (ix2 (Cert.Spec.rowOfEdge (sortedK (srcK x1) x1) e) (0 : Fin 1)) = _
  rw [ds2K_apply]

/-- With the rectifier. -/
theorem layer_relu_eq (x1 : IVec S2x600000 32) (a : (⟨2, ![100000, 128]⟩ : Shape).Idx → EReal)
    (W : (⟨2, ![128, 128]⟩ : Shape).Idx → EReal) (b : FVec Ideal S128 .f32) :
    Cert.Spec.postRelu (aggK (F := Ideal) (Cert.Spec.pre a W (ds2K (F := Ideal) x1)) (sortedK (srcK x1) x1) (sortedK (dstK x1) x1))
        (ds2K (F := Ideal) x1) (biasRow (F := Ideal) b)
      = Cert.Spec.relu (Cert.Spec.layer (srcK x1) (dstK x1) (dsK (F := Ideal) x1) a W b) := by
  rw [← layer_eq]
  rfl

end Cert.KernelIdeal.KLayer

end
-- ==== Proof.RegionPre.lean ====
/-
  The three projection regions as whole-array functions.

  Each projection region walks the 100000 rows in 50 blocks of 2000. At block `t` its body multiplies rows
  `2000 t … 2000 t + 1999` of the activations by the whole `128 × 128` weight, scales row `p` of the product by entry
  `2000 t + p` of the scale column, and stores the block at the same rows of the output. Read on the extended
  reals the format changes are the identity and the product into a zero accumulator is the plain sum over the
  shared axis, so entry `(n, j)` of the output is `(∑ k, a[n, k] · W[k, j]) · d[n]`, whatever the arrays hold when
  the region is entered. The 50 blocks tile the rows (row `n` lies in block `n / 2000`), so the output array is that
  function everywhere.
-/
import proofs.«117999_j30562987278370_2_alg».proof.Proof.Gen.KernelIdeal.Frame
import proofs.«117999_j30562987278370_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's matrix product at an index -/

theorem lhs_row (i : S2000x128.Idx) (k : (dot_S2000x128_S128x128_S2000x128_1_0_0_1_n_n).contr.Idx) :
    ((dot_S2000x128_S128x128_S2000x128_1_0_0_1_n_n).lhsIdx i k 0).val = (i 0).val := by
  unfold DotDims.lhsIdx
  rw [dif_neg (show ¬(0 : Fin S2000x128.rank) ∈ (dot_S2000x128_S128x128_S2000x128_1_0_0_1_n_n).lhsBatch by decide),
    dif_pos (show (0 : Fin S2000x128.rank) ∈ (dot_S2000x128_S128x128_S2000x128_1_0_0_1_n_n).lhsNonContracting by decide)]
  rfl
theorem lhs_col (i : S2000x128.Idx) (k : (dot_S2000x128_S128x128_S2000x128_1_0_0_1_n_n).contr.Idx) :
    ((dot_S2000x128_S128x128_S2000x128_1_0_0_1_n_n).lhsIdx i k 1).val = (k ⟨0, by decide⟩).val :=
  (dot_S2000x128_S128x128_S2000x128_1_0_0_1_n_n).lhsIdx_val_of_single rfl i k
theorem rhs_row (i : S2000x128.Idx) (k : (dot_S2000x128_S128x128_S2000x128_1_0_0_1_n_n).contr.Idx) :
    ((dot_S2000x128_S128x128_S2000x128_1_0_0_1_n_n).rhsIdx i k 0).val = (k ⟨0, by decide⟩).val :=
  (dot_S2000x128_S128x128_S2000x128_1_0_0_1_n_n).rhsIdx_val_of_single rfl i k
theorem rhs_col (i : S2000x128.Idx) (k : (dot_S2000x128_S128x128_S2000x128_1_0_0_1_n_n).contr.Idx) :
    ((dot_S2000x128_S128x128_S2000x128_1_0_0_1_n_n).rhsIdx i k 1).val = (i 1).val := by
  unfold DotDims.rhsIdx
  rw [dif_neg (show ¬(1 : Fin S128x128.rank) ∈ (dot_S2000x128_S128x128_S2000x128_1_0_0_1_n_n).rhsBatch by decide),
    dif_pos (show (1 : Fin S128x128.rank) ∈ (dot_S2000x128_S128x128_S2000x128_1_0_0_1_n_n).rhsNonContracting by decide)]
  rfl

/-- The body's product of a row block `[2000, 128]` with the weight `[128, 128]` into a zero accumulator, at `(p, q)`:
    the sum over the shared axis. -/
theorem matmul_at (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-! ## The projection body's stored value at an index -/

/-- Row `p` of the block times column `q` of the weight, scaled by the block's scale entry of row `p` (the format
    changes are the identity on extended reals). -/
theorem pay_pre0 (x0 : Vec Ideal S2000x128 .f32) (x1 : Vec Ideal S128x128 .f32) (x2 : Vec Ideal S2000x1 .f32)
    (p : Fin 2000) (q : Fin 128) :
    k0_pay1 (F := Ideal) x0 x1 x2 (ix2 p q) = (∑ k : Fin 128, x0 (ix2 p k) * x1 (ix2 k q)) * x2 (ix2 p (0 : Fin 1)) := by
  unfold k0_pay1
  rw [truncf_apply, mulf_apply, shapeCast_self, shapeCast_self, matmul_at, broadcastTo_a1_ab_apply]
  rfl

/-- The same for the second and third layers' projection bodies, which first recast the block to its own shape. -/
theorem pay_pre2 (x0 : Vec Ideal S2000x128 .f32) (x1 : Vec Ideal S128x128 .f32) (x2 : Vec Ideal S2000x1 .f32)
    (p : Fin 2000) (q : Fin 128) :
    k2_pay1 (F := Ideal) x0 x1 x2 (ix2 p q) = (∑ k : Fin 128, x0 (ix2 p k) * x1 (ix2 k q)) * x2 (ix2 p (0 : Fin 1)) := by
  unfold k2_pay1
  rw [truncf_apply, mulf_apply, shapeCast_self, shapeCast_self, shapeCast_self, matmul_at, broadcastTo_a1_ab_apply]
  rfl

theorem pay_pre4 (x0 : Vec Ideal S2000x128 .f32) (x1 : Vec Ideal S128x128 .f32) (x2 : Vec Ideal S2000x1 .f32)
    (p : Fin 2000) (q : Fin 128) :
    k4_pay1 (F := Ideal) x0 x1 x2 (ix2 p q) = (∑ k : Fin 128, x0 (ix2 p k) * x1 (ix2 k q)) * x2 (ix2 p (0 : Fin 1)) :=
  pay_pre2 x0 x1 x2 p q

theorem origin_zero : (![0, 0] : Fin 2 → Nat) = fun _ => 0 := funext fun a => by fin_cases a <;> rfl

section Regions
variable (V : (c : Dev nD) → (b : Ref sig .tc) → Buf (Elt Ideal) ((c : Thread nD τ).loc b))

/-! ## Region 0: the first layer's projection -/

/-- The printed index maps, decided over the grid: at point `t` the row block, the scale block and the output block
    are all block `t` of their arrays' rows, and the weight is its one block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of point `t`'s row block sits in the array at row `2000 t + p`. -/
theorem rows0_emb (t : Fin cfg0.N) (p : Fin 2000) (k : Fin 128) (r : Fin 100000) (hr : r.val = t.val * 2000 + p.val) :
    ((cfg0.win 0).blk t).view.emb (ix2 p k) = ix2 r k := by
  obtain ⟨e00, e01, -⟩ := blocks0 t
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

/-- The weight's one block is the weight. -/
theorem weight0_emb (t : Fin cfg0.N) (k q : Fin 128) : ((cfg0.win 1).blk t).view.emb (ix2 k q) = ix2 k q := by
  obtain ⟨-, -, e10, e11, -⟩ := blocks0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Entry `p` of point `t`'s scale block sits in the scale column at row `2000 t + p`. -/
theorem scale0_emb (t : Fin cfg0.N) (p : Fin 2000) (r : Fin 100000) (hr : r.val = t.val * 2000 + p.val) :
    ((cfg0.win 2).blk t).view.emb (ix2 p (0 : Fin 1)) = ix2 r (0 : Fin 1) := by
  obtain ⟨-, -, -, -, e20, e21, -⟩ := blocks0 t
  funext a; apply Fin.ext
  match a with
  | ⟨0, _⟩ => show win0_2.index t (0 : Fin 2) * 2000 + 1 * p.val = r.val; omega
  | ⟨1, _⟩ => show win0_2.index t (1 : Fin 2) * 1 + 1 * 0 = 0; omega

/-- Entry `(p, q)` of point `t`'s output block sits in the output array at row `2000 t + p`. -/
theorem out0_emb (t : Fin cfg0.N) (p : Fin 2000) (q : Fin 128) (r : Fin 100000) (hr : r.val = t.val * 2000 + p.val) :
    ((cfg0.win 3).blk t).view.emb (ix2 p q) = ix2 r q := by
  obtain ⟨-, -, -, -, -, -, e30, e31⟩ := blocks0 t
  funext a; apply Fin.ext
  match a with
  | ⟨0, _⟩ => show win0_3.index t (0 : Fin 2) * 2000 + 1 * p.val = r.val; omega
  | ⟨1, _⟩ => show win0_3.index t (1 : Fin 2) * 128 + 1 * q.val = q.val; omega

/-- What point `t` writes back is block `t` of the projection of the arrays as the region finds them. -/
theorem flushed0 (c : Dev nD) (t : Fin cfg0.N) :
    (dat0 (F := Ideal) V c).flushed 3 t
      = ((cfg0.win 3).blk t).view.read (Elt Ideal) (Cert.Spec.pre (V c main_arg0) (V c main_arg2) (V c main_v17)) := by
  show (cfg0.win 3).cut (grid0.coords t) ((dat0 V c).after 3 t) = _
  rw [after0_3]
  unfold out0_3
  rw [View.canon_unit_zero origin_zero]
  simp only [View.ld_unit_zero (S := S2000x128) origin_zero, View.ld_unit_zero (S := S128x128) origin_zero,
    View.ld_unit_zero (S := S2000x1) origin_zero]
  funext j
  obtain ⟨p, q, rfl⟩ : ∃ (p : Fin 2000) (q : Fin 128), j = ix2 p q := ⟨j 0, j 1, eq_ix2 j⟩
  have ht : t.val < 50 := Nat.lt_of_lt_of_eq t.isLt N_0
  obtain ⟨r, hr⟩ : ∃ r : Fin 100000, r.val = t.val * 2000 + p.val := ⟨⟨t.val * 2000 + p.val, by omega⟩, rfl⟩
  have hA : ∀ k : Fin 128, iblk0 V c 0 t (ix2 p k) = V c main_arg0 (ix2 r k) := fun k => by
    show V c main_arg0 (((cfg0.win 0).blk t).view.emb (ix2 p k)) = _
    rw [rows0_emb t p k r hr]
  have hW : ∀ k : Fin 128, iblk0 V c 1 t (ix2 k q) = V c main_arg2 (ix2 k q) := fun k => by
    show V c main_arg2 (((cfg0.win 1).blk t).view.emb (ix2 k q)) = _
    rw [weight0_emb t k q]
  have hD : iblk0 V c 2 t (ix2 p (0 : Fin 1)) = V c main_v17 (ix2 r (0 : Fin 1)) := by
    show V c main_v17 (((cfg0.win 2).blk t).view.emb (ix2 p (0 : Fin 1))) = _
    rw [scale0_emb t p r hr]
  show k0_pay1 (F := Ideal) (iblk0 V c 0 t) (iblk0 V c 1 t) (iblk0 V c 2 t) (ix2 p q)
    = Cert.Spec.pre (V c main_arg0) (V c main_arg2) (V c main_v17) (((cfg0.win 3).blk t).view.emb (ix2 p q))
  refine (pay_pre0 (iblk0 V c 0 t) (iblk0 V c 1 t) (iblk0 V c 2 t) p q).trans ?_
  rw [out0_emb t p q r hr, hD, Finset.sum_congr rfl fun k _ => by rw [hA k, hW k]]
  rfl

/-- An index of the output array is in point `t`'s block iff each coordinate is in the block's range on its axis. -/
theorem mem_out0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v33).slice (win0_3.rect t)).set ↔ _
  rw [View.set_slice_whole, Rect.mem_set_unit]
  exact Iff.rfl

/-- Every row is written: row `n` by point `n / 2000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, e30, e31⟩ := blocks0 t
  refine ⟨t, flush0_3 t, ?_⟩
  rw [mem_out0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The region's output array after its run: the projection of the arrays as the region finds them. -/
theorem arr0 (c : Dev nD) :
    (dat0 (F := Ideal) V c).arrAt 3 cfg0.N = Cert.Spec.pre (V c main_arg0) (V c main_arg2) (V c main_v17) :=
  (dat0 (F := Ideal) V c).arrAt_eq_of_cover 3 (Cert.Spec.pre (V c main_arg0) (V c main_arg2) (V c main_v17))
    (fun t _ => flushed0 V c t) cover0

/-! ## Region 2: the second layer's projection -/

/-- The printed index maps, decided over the grid: at point `t` the row block, the scale block and the output block
    are all block `t` of their arrays' rows, and the weight is its one block. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `(p, k)` of point `t`'s row block sits in the array at row `2000 t + p`. -/
theorem rows2_emb (t : Fin cfg2.N) (p : Fin 2000) (k : Fin 128) (r : Fin 100000) (hr : r.val = t.val * 2000 + p.val) :
    ((cfg2.win 0).blk t).view.emb (ix2 p k) = ix2 r k := by
  obtain ⟨e00, e01, -⟩ := blocks2 t
  funext a; apply Fin.ext
  match a with
  | ⟨0, _⟩ => show win2_0.index t (0 : Fin 2) * 2000 + 1 * p.val = r.val; omega
  | ⟨1, _⟩ => show win2_0.index t (1 : Fin 2) * 128 + 1 * k.val = k.val; omega

/-- The weight's one block is the weight. -/
theorem weight2_emb (t : Fin cfg2.N) (k q : Fin 128) : ((cfg2.win 1).blk t).view.emb (ix2 k q) = ix2 k q := by
  obtain ⟨-, -, e10, e11, -⟩ := blocks2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Entry `p` of point `t`'s scale block sits in the scale column at row `2000 t + p`. -/
theorem scale2_emb (t : Fin cfg2.N) (p : Fin 2000) (r : Fin 100000) (hr : r.val = t.val * 2000 + p.val) :
    ((cfg2.win 2).blk t).view.emb (ix2 p (0 : Fin 1)) = ix2 r (0 : Fin 1) := by
  obtain ⟨-, -, -, -, e20, e21, -⟩ := blocks2 t
  funext a; apply Fin.ext
  match a with
  | ⟨0, _⟩ => show win2_2.index t (0 : Fin 2) * 2000 + 1 * p.val = r.val; omega
  | ⟨1, _⟩ => show win2_2.index t (1 : Fin 2) * 1 + 1 * 0 = 0; omega

/-- Entry `(p, q)` of point `t`'s output block sits in the output array at row `2000 t + p`. -/
theorem out2_emb (t : Fin cfg2.N) (p : Fin 2000) (q : Fin 128) (r : Fin 100000) (hr : r.val = t.val * 2000 + p.val) :
    ((cfg2.win 3).blk t).view.emb (ix2 p q) = ix2 r q := by
  obtain ⟨-, -, -, -, -, -, e30, e31⟩ := blocks2 t
  funext a; apply Fin.ext
  match a with
  | ⟨0, _⟩ => show win2_3.index t (0 : Fin 2) * 2000 + 1 * p.val = r.val; omega
  | ⟨1, _⟩ => show win2_3.index t (1 : Fin 2) * 128 + 1 * q.val = q.val; omega

/-- What point `t` writes back is block `t` of the projection of the arrays as the region finds them. -/
theorem flushed2 (c : Dev nD) (t : Fin cfg2.N) :
    (dat2 (F := Ideal) V c).flushed 3 t
      = ((cfg2.win 3).blk t).view.read (Elt Ideal) (Cert.Spec.pre (V c main_v46) (V c main_arg4) (V c main_v17)) := by
  show (cfg2.win 3).cut (grid2.coords t) ((dat2 V c).after 3 t) = _
  rw [after2_3]
  unfold out2_3
  rw [View.canon_unit_zero origin_zero]
  simp only [View.ld_unit_zero (S := S2000x128) origin_zero, View.ld_unit_zero (S := S128x128) origin_zero,
    View.ld_unit_zero (S := S2000x1) origin_zero]
  funext j
  obtain ⟨p, q, rfl⟩ : ∃ (p : Fin 2000) (q : Fin 128), j = ix2 p q := ⟨j 0, j 1, eq_ix2 j⟩
  have ht : t.val < 50 := Nat.lt_of_lt_of_eq t.isLt N_2
  obtain ⟨r, hr⟩ : ∃ r : Fin 100000, r.val = t.val * 2000 + p.val := ⟨⟨t.val * 2000 + p.val, by omega⟩, rfl⟩
  have hA : ∀ k : Fin 128, iblk2 V c 0 t (ix2 p k) = V c main_v46 (ix2 r k) := fun k => by
    show V c main_v46 (((cfg2.win 0).blk t).view.emb (ix2 p k)) = _
    rw [rows2_emb t p k r hr]
  have hW : ∀ k : Fin 128, iblk2 V c 1 t (ix2 k q) = V c main_arg4 (ix2 k q) := fun k => by
    show V c main_arg4 (((cfg2.win 1).blk t).view.emb (ix2 k q)) = _
    rw [weight2_emb t k q]
  have hD : iblk2 V c 2 t (ix2 p (0 : Fin 1)) = V c main_v17 (ix2 r (0 : Fin 1)) := by
    show V c main_v17 (((cfg2.win 2).blk t).view.emb (ix2 p (0 : Fin 1))) = _
    rw [scale2_emb t p r hr]
  show k2_pay1 (F := Ideal) (iblk2 V c 0 t) (iblk2 V c 1 t) (iblk2 V c 2 t) (ix2 p q)
    = Cert.Spec.pre (V c main_v46) (V c main_arg4) (V c main_v17) (((cfg2.win 3).blk t).view.emb (ix2 p q))
  refine (pay_pre2 (iblk2 V c 0 t) (iblk2 V c 1 t) (iblk2 V c 2 t) p q).trans ?_
  rw [out2_emb t p q r hr, hD, Finset.sum_congr rfl fun k _ => by rw [hA k, hW k]]
  rfl

/-- An index of the output array is in point `t`'s block iff each coordinate is in the block's range on its axis. -/
theorem mem_out2 (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v47).slice (win2_3.rect t)).set ↔ _
  rw [View.set_slice_whole, Rect.mem_set_unit]
  exact Iff.rfl

/-- Every row is written: row `n` by point `n / 2000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, -, -, e30, e31⟩ := blocks2 t
  refine ⟨t, flush2_3 t, ?_⟩
  rw [mem_out2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- The region's output array after its run: the projection of the arrays as the region finds them. -/
theorem arr2 (c : Dev nD) :
    (dat2 (F := Ideal) V c).arrAt 3 cfg2.N = Cert.Spec.pre (V c main_v46) (V c main_arg4) (V c main_v17) :=
  (dat2 (F := Ideal) V c).arrAt_eq_of_cover 3 (Cert.Spec.pre (V c main_v46) (V c main_arg4) (V c main_v17))
    (fun t _ => flushed2 V c t) cover2

/-! ## Region 4: the third layer's projection -/

/-- The printed index maps, decided over the grid: at point `t` the row block, the scale block and the output block
    are all block `t` of their arrays' rows, and the weight is its one block. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Entry `(p, k)` of point `t`'s row block sits in the array at row `2000 t + p`. -/
theorem rows4_emb (t : Fin cfg4.N) (p : Fin 2000) (k : Fin 128) (r : Fin 100000) (hr : r.val = t.val * 2000 + p.val) :
    ((cfg4.win 0).blk t).view.emb (ix2 p k) = ix2 r k := by
  obtain ⟨e00, e01, -⟩ := blocks4 t
  funext a; apply Fin.ext
  match a with
  | ⟨0, _⟩ => show win4_0.index t (0 : Fin 2) * 2000 + 1 * p.val = r.val; omega
  | ⟨1, _⟩ => show win4_0.index t (1 : Fin 2) * 128 + 1 * k.val = k.val; omega

/-- The weight's one block is the weight. -/
theorem weight4_emb (t : Fin cfg4.N) (k q : Fin 128) : ((cfg4.win 1).blk t).view.emb (ix2 k q) = ix2 k q := by
  obtain ⟨-, -, e10, e11, -⟩ := blocks4 t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- Entry `p` of point `t`'s scale block sits in the scale column at row `2000 t + p`. -/
theorem scale4_emb (t : Fin cfg4.N) (p : Fin 2000) (r : Fin 100000) (hr : r.val = t.val * 2000 + p.val) :
    ((cfg4.win 2).blk t).view.emb (ix2 p (0 : Fin 1)) = ix2 r (0 : Fin 1) := by
  obtain ⟨-, -, -, -, e20, e21, -⟩ := blocks4 t
  funext a; apply Fin.ext
  match a with
  | ⟨0, _⟩ => show win4_2.index t (0 : Fin 2) * 2000 + 1 * p.val = r.val; omega
  | ⟨1, _⟩ => show win4_2.index t (1 : Fin 2) * 1 + 1 * 0 = 0; omega

/-- Entry `(p, q)` of point `t`'s output block sits in the output array at row `2000 t + p`. -/
theorem out4_emb (t : Fin cfg4.N) (p : Fin 2000) (q : Fin 128) (r : Fin 100000) (hr : r.val = t.val * 2000 + p.val) :
    ((cfg4.win 3).blk t).view.emb (ix2 p q) = ix2 r q := by
  obtain ⟨-, -, -, -, -, -, e30, e31⟩ := blocks4 t
  funext a; apply Fin.ext
  match a with
  | ⟨0, _⟩ => show win4_3.index t (0 : Fin 2) * 2000 + 1 * p.val = r.val; omega
  | ⟨1, _⟩ => show win4_3.index t (1 : Fin 2) * 128 + 1 * q.val = q.val; omega

/-- What point `t` writes back is block `t` of the projection of the arrays as the region finds them. -/
theorem flushed4 (c : Dev nD) (t : Fin cfg4.N) :
    (dat4 (F := Ideal) V c).flushed 3 t
      = ((cfg4.win 3).blk t).view.read (Elt Ideal) (Cert.Spec.pre (V c main_v60) (V c main_arg6) (V c main_v17)) := by
  show (cfg4.win 3).cut (grid4.coords t) ((dat4 V c).after 3 t) = _
  rw [after4_3]
  unfold out4_3
  rw [View.canon_unit_zero origin_zero]
  simp only [View.ld_unit_zero (S := S2000x128) origin_zero, View.ld_unit_zero (S := S128x128) origin_zero,
    View.ld_unit_zero (S := S2000x1) origin_zero]
  funext j
  obtain ⟨p, q, rfl⟩ : ∃ (p : Fin 2000) (q : Fin 128), j = ix2 p q := ⟨j 0, j 1, eq_ix2 j⟩
  have ht : t.val < 50 := Nat.lt_of_lt_of_eq t.isLt N_4
  obtain ⟨r, hr⟩ : ∃ r : Fin 100000, r.val = t.val * 2000 + p.val := ⟨⟨t.val * 2000 + p.val, by omega⟩, rfl⟩
  have hA : ∀ k : Fin 128, iblk4 V c 0 t (ix2 p k) = V c main_v60 (ix2 r k) := fun k => by
    show V c main_v60 (((cfg4.win 0).blk t).view.emb (ix2 p k)) = _
    rw [rows4_emb t p k r hr]
  have hW : ∀ k : Fin 128, iblk4 V c 1 t (ix2 k q) = V c main_arg6 (ix2 k q) := fun k => by
    show V c main_arg6 (((cfg4.win 1).blk t).view.emb (ix2 k q)) = _
    rw [weight4_emb t k q]
  have hD : iblk4 V c 2 t (ix2 p (0 : Fin 1)) = V c main_v17 (ix2 r (0 : Fin 1)) := by
    show V c main_v17 (((cfg4.win 2).blk t).view.emb (ix2 p (0 : Fin 1))) = _
    rw [scale4_emb t p r hr]
  show k4_pay1 (F := Ideal) (iblk4 V c 0 t) (iblk4 V c 1 t) (iblk4 V c 2 t) (ix2 p q)
    = Cert.Spec.pre (V c main_v60) (V c main_arg6) (V c main_v17) (((cfg4.win 3).blk t).view.emb (ix2 p q))
  refine (pay_pre4 (iblk4 V c 0 t) (iblk4 V c 1 t) (iblk4 V c 2 t) p q).trans ?_
  rw [out4_emb t p q r hr, hD, Finset.sum_congr rfl fun k _ => by rw [hA k, hW k]]
  rfl

/-- An index of the output array is in point `t`'s block iff each coordinate is in the block's range on its axis. -/
theorem mem_out4 (t : Fin cfg4.N) (i : S100000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v61).slice (win4_3.rect t)).set ↔ _
  rw [View.set_slice_whole, Rect.mem_set_unit]
  exact Iff.rfl

/-- Every row is written: row `n` by point `n / 2000`. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ : ∃ t : Fin cfg4.N, t.val = (i 0).val / 2000 :=
    ⟨⟨(i 0).val / 2000, by rw [show cfg4.N = 50 from N_4]; omega⟩, rfl⟩
  obtain ⟨-, -, -, -, -, -, e30, e31⟩ := blocks4 t
  refine ⟨t, flush4_3 t, ?_⟩
  rw [mem_out4]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 128 ≤ (i 1).val ∧ (i 1).val < win4_3.index t (1 : Fin 2) * 128 + 128
    omega

/-- The region's output array after its run: the projection of the arrays as the region finds them. -/
theorem arr4 (c : Dev nD) :
    (dat4 (F := Ideal) V c).arrAt 3 cfg4.N = Cert.Spec.pre (V c main_v60) (V c main_arg6) (V c main_v17) :=
  (dat4 (F := Ideal) V c).arrAt_eq_of_cover 3 (Cert.Spec.pre (V c main_v60) (V c main_arg6) (V c main_v17))
    (fun t _ => flushed4 V c t) cover4

end Regions

end Cert.KernelIdeal.RegionValue

end
-- ==== Proof.RegionPost.lean ====
/-
  The three epilogue regions as whole-array functions.

  Each epilogue region walks the 100000 rows in 50 blocks of 2000. At block `t` its body scales row `p` of rows
  `2000 t … 2000 t + 1999` of the scattered sums by entry `2000 t + p` of the scale column, adds the bias row, takes
  the maximum with zero in the first two layers (not in the third), and stores the block at the same rows of the
  output. Read on the extended reals, entry `(n, j)` of the output is `agg[n, j] · d[n] + b[j]`, rectified in the first
  two layers, whatever the arrays hold when the region is entered. The 50 blocks tile the rows (row `n` lies in block
  `n / 2000`), so the output array is that function everywhere.
-/
import proofs.«117999_j30562987278370_2_alg».proof.Proof.Gen.KernelIdeal.Frame
import proofs.«117999_j30562987278370_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat Cfg Window)

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The epilogue body's stored value at an index -/

/-- Entry `(p, q)` of the block times the block's scale entry of row `p`, plus the bias at `q`, rectified (the zero
    the maximum is taken with is the zero word's value, `0`). -/
theorem pay_post1 (x0 : Vec Ideal S2000x128 .f32) (x1 : Vec Ideal S2000x1 .f32) (x2 : Vec Ideal S1x128 .f32)
    (p : Fin 2000) (q : Fin 128) :
    k1_pay1 (F := Ideal) x0 x1 x2 (ix2 p q) = max (x0 (ix2 p q) * x1 (ix2 p (0 : Fin 1)) + x2 (ix2 (0 : Fin 1) q)) 0 := by
  unfold k1_pay1
  rw [maximumf_apply, addf_apply, mulf_apply, broadcast_apply]
  simp only [shapeCast_self]
  rw [broadcastTo_column_apply, broadcastTo_1b_ab_apply]
  show max _ (Ideal.ofBits .f32 0x00000000#32) = _
  rw [Ideal.ofBits_zero_f32]

theorem pay_post3 (x0 : Vec Ideal S2000x128 .f32) (x1 : Vec Ideal S2000x1 .f32) (x2 : Vec Ideal S1x128 .f32)
    (p : Fin 2000) (q : Fin 128) :
    k3_pay1 (F := Ideal) x0 x1 x2 (ix2 p q) = max (x0 (ix2 p q) * x1 (ix2 p (0 : Fin 1)) + x2 (ix2 (0 : Fin 1) q)) 0 := by
  unfold k3_pay1
  rw [maximumf_apply, addf_apply, mulf_apply, broadcast_apply]
  simp only [shapeCast_self]
  rw [broadcastTo_column_apply, broadcastTo_1b_ab_apply]
  show max _ (Ideal.ofBits .f32 0x00000000#32) = _
  rw [Ideal.ofBits_zero_f32]

/-- The last layer's epilogue: the same without the rectifier. -/
theorem pay_post5 (x0 : Vec Ideal S2000x128 .f32) (x1 : Vec Ideal S2000x1 .f32) (x2 : Vec Ideal S1x128 .f32)
    (p : Fin 2000) (q : Fin 128) :
    k5_pay1 (F := Ideal) x0 x1 x2 (ix2 p q) = x0 (ix2 p q) * x1 (ix2 p (0 : Fin 1)) + x2 (ix2 (0 : Fin 1) q) := by
  unfold k5_pay1
  rw [addf_apply, mulf_apply]
  simp only [shapeCast_self]
  rw [broadcastTo_column_apply, broadcastTo_1b_ab_apply]

theorem block_origin : (![0, 0] : Fin 2 → Nat) = fun _ => 0 := funext fun a => by fin_cases a <;> rfl

section Regions
variable (V : (c : Dev nD) → (b : Ref sig .tc) → Buf (Elt Ideal) ((c : Thread nD τ).loc b))

/-! ## Region 1: the first layer's epilogue -/

/-- The printed index maps, decided over the grid: at point `t` the row block, the scale block and the output block
    are all block `t` of their arrays' rows, and the bias row is its one block. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, q)` of point `t`'s row block sits in the array at row `2000 t + p`. -/
theorem rows1_emb (t : Fin cfg1.N) (p : Fin 2000) (q : Fin 128) (r : Fin 100000) (hr : r.val = t.val * 2000 + p.val) :
    ((cfg1.win 0).blk t).view.emb (ix2 p q) = ix2 r q := by
  obtain ⟨e00, e01, -⟩ := blocks1 t
  funext a; apply Fin.ext
  match a with
  | ⟨0, _⟩ => show win1_0.index t (0 : Fin 2) * 2000 + 1 * p.val = r.val; omega
  | ⟨1, _⟩ => show win1_0.index t (1 : Fin 2) * 128 + 1 * q.val = q.val; omega

/-- Entry `p` of point `t`'s scale block sits in the scale column at row `2000 t + p`. -/
theorem scale1_emb (t : Fin cfg1.N) (p : Fin 2000) (r : Fin 100000) (hr : r.val = t.val * 2000 + p.val) :
    ((cfg1.win 1).blk t).view.emb (ix2 p (0 : Fin 1)) = ix2 r (0 : Fin 1) := by
  obtain ⟨-, -, e10, e11, -⟩ := blocks1 t
  funext a; apply Fin.ext
  match a with
  | ⟨0, _⟩ => show win1_1.index t (0 : Fin 2) * 2000 + 1 * p.val = r.val; omega
  | ⟨1, _⟩ => show win1_1.index t (1 : Fin 2) * 1 + 1 * 0 = 0; omega

/-- The bias row's one block is the bias row. -/
theorem bias1_emb (t : Fin cfg1.N) (q : Fin 128) :
    ((cfg1.win 2).blk t).view.emb (ix2 (0 : Fin 1) q) = ix2 (0 : Fin 1) q := by
  obtain ⟨-, -, -, -, e20, e21, -⟩ := blocks1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Entry `(p, q)` of point `t`'s output block sits in the output array at row `2000 t + p`. -/
theorem out1_emb (t : Fin cfg1.N) (p : Fin 2000) (q : Fin 128) (r : Fin 100000) (hr : r.val = t.val * 2000 + p.val) :
    ((cfg1.win 3).blk t).view.emb (ix2 p q) = ix2 r q := by
  obtain ⟨-, -, -, -, -, -, e30, e31⟩ := blocks1 t
  funext a; apply Fin.ext
  match a with
  | ⟨0, _⟩ => show win1_3.index t (0 : Fin 2) * 2000 + 1 * p.val = r.val; omega
  | ⟨1, _⟩ => show win1_3.index t (1 : Fin 2) * 128 + 1 * q.val = q.val; omega

/-- What point `t` writes back is block `t` of the epilogue of the arrays as the region finds them. -/
theorem flushed1 (c : Dev nD) (t : Fin cfg1.N) :
    (dat1 (F := Ideal) V c).flushed 3 t
      = ((cfg1.win 3).blk t).view.read (Elt Ideal) (Cert.Spec.postRelu (V c main_v44) (V c main_v17) (V c main_v45)) := by
  show (cfg1.win 3).cut (grid1.coords t) ((dat1 V c).after 3 t) = _
  rw [after1_3]
  unfold out1_3
  rw [View.canon_unit_zero block_origin]
  simp only [View.ld_unit_zero (S := S2000x128) block_origin, View.ld_unit_zero (S := S2000x1) block_origin,
    View.ld_unit_zero (S := S1x128) block_origin]
  funext j
  obtain ⟨p, q, rfl⟩ : ∃ (p : Fin 2000) (q : Fin 128), j = ix2 p q := ⟨j 0, j 1, eq_ix2 j⟩
  have ht : t.val < 50 := Nat.lt_of_lt_of_eq t.isLt N_1
  obtain ⟨r, hr⟩ : ∃ r : Fin 100000, r.val = t.val * 2000 + p.val := ⟨⟨t.val * 2000 + p.val, by omega⟩, rfl⟩
  have hA : iblk1 V c 0 t (ix2 p q) = V c main_v44 (ix2 r q) := by
    show V c main_v44 (((cfg1.win 0).blk t).view.emb (ix2 p q)) = _
    rw [rows1_emb t p q r hr]
  have hD : iblk1 V c 1 t (ix2 p (0 : Fin 1)) = V c main_v17 (ix2 r (0 : Fin 1)) := by
    show V c main_v17 (((cfg1.win 1).blk t).view.emb (ix2 p (0 : Fin 1))) = _
    rw [scale1_emb t p r hr]
  have hB : iblk1 V c 2 t (ix2 (0 : Fin 1) q) = V c main_v45 (ix2 (0 : Fin 1) q) := by
    show V c main_v45 (((cfg1.win 2).blk t).view.emb (ix2 (0 : Fin 1) q)) = _
    rw [bias1_emb t q]
  show k1_pay1 (F := Ideal) (iblk1 V c 0 t) (iblk1 V c 1 t) (iblk1 V c 2 t) (ix2 p q)
    = Cert.Spec.postRelu (V c main_v44) (V c main_v17) (V c main_v45) (((cfg1.win 3).blk t).view.emb (ix2 p q))
  refine (pay_post1 (iblk1 V c 0 t) (iblk1 V c 1 t) (iblk1 V c 2 t) p q).trans ?_
  rw [out1_emb t p q r hr, hA, hD, hB]
  rfl

/-- An index of the output array is in point `t`'s block iff each coordinate is in the block's range on its axis. -/
theorem mem_out1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v46).slice (win1_3.rect t)).set ↔ _
  rw [View.set_slice_whole, Rect.mem_set_unit]
  exact Iff.rfl

/-- Every row is written: row `n` by point `n / 2000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, e30, e31⟩ := blocks1 t
  refine ⟨t, flush1_3 t, ?_⟩
  rw [mem_out1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- The region's output array after its run: the epilogue of the arrays as the region finds them. -/
theorem arr1 (c : Dev nD) :
    (dat1 (F := Ideal) V c).arrAt 3 cfg1.N = Cert.Spec.postRelu (V c main_v44) (V c main_v17) (V c main_v45) :=
  (dat1 (F := Ideal) V c).arrAt_eq_of_cover 3 (Cert.Spec.postRelu (V c main_v44) (V c main_v17) (V c main_v45))
    (fun t _ => flushed1 V c t) cover1

/-! ## Region 3: the second layer's epilogue -/

/-- The printed index maps, decided over the grid: at point `t` the row block, the scale block and the output block
    are all block `t` of their arrays' rows, and the bias row is its one block. -/
theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `(p, q)` of point `t`'s row block sits in the array at row `2000 t + p`. -/
theorem rows3_emb (t : Fin cfg3.N) (p : Fin 2000) (q : Fin 128) (r : Fin 100000) (hr : r.val = t.val * 2000 + p.val) :
    ((cfg3.win 0).blk t).view.emb (ix2 p q) = ix2 r q := by
  obtain ⟨e00, e01, -⟩ := blocks3 t
  funext a; apply Fin.ext
  match a with
  | ⟨0, _⟩ => show win3_0.index t (0 : Fin 2) * 2000 + 1 * p.val = r.val; omega
  | ⟨1, _⟩ => show win3_0.index t (1 : Fin 2) * 128 + 1 * q.val = q.val; omega

/-- Entry `p` of point `t`'s scale block sits in the scale column at row `2000 t + p`. -/
theorem scale3_emb (t : Fin cfg3.N) (p : Fin 2000) (r : Fin 100000) (hr : r.val = t.val * 2000 + p.val) :
    ((cfg3.win 1).blk t).view.emb (ix2 p (0 : Fin 1)) = ix2 r (0 : Fin 1) := by
  obtain ⟨-, -, e10, e11, -⟩ := blocks3 t
  funext a; apply Fin.ext
  match a with
  | ⟨0, _⟩ => show win3_1.index t (0 : Fin 2) * 2000 + 1 * p.val = r.val; omega
  | ⟨1, _⟩ => show win3_1.index t (1 : Fin 2) * 1 + 1 * 0 = 0; omega

/-- The bias row's one block is the bias row. -/
theorem bias3_emb (t : Fin cfg3.N) (q : Fin 128) :
    ((cfg3.win 2).blk t).view.emb (ix2 (0 : Fin 1) q) = ix2 (0 : Fin 1) q := by
  obtain ⟨-, -, -, -, e20, e21, -⟩ := blocks3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- Entry `(p, q)` of point `t`'s output block sits in the output array at row `2000 t + p`. -/
theorem out3_emb (t : Fin cfg3.N) (p : Fin 2000) (q : Fin 128) (r : Fin 100000) (hr : r.val = t.val * 2000 + p.val) :
    ((cfg3.win 3).blk t).view.emb (ix2 p q) = ix2 r q := by
  obtain ⟨-, -, -, -, -, -, e30, e31⟩ := blocks3 t
  funext a; apply Fin.ext
  match a with
  | ⟨0, _⟩ => show win3_3.index t (0 : Fin 2) * 2000 + 1 * p.val = r.val; omega
  | ⟨1, _⟩ => show win3_3.index t (1 : Fin 2) * 128 + 1 * q.val = q.val; omega

/-- What point `t` writes back is block `t` of the epilogue of the arrays as the region finds them. -/
theorem flushed3 (c : Dev nD) (t : Fin cfg3.N) :
    (dat3 (F := Ideal) V c).flushed 3 t
      = ((cfg3.win 3).blk t).view.read (Elt Ideal) (Cert.Spec.postRelu (V c main_v58) (V c main_v17) (V c main_v59)) := by
  show (cfg3.win 3).cut (grid3.coords t) ((dat3 V c).after 3 t) = _
  rw [after3_3]
  unfold out3_3
  rw [View.canon_unit_zero block_origin]
  simp only [View.ld_unit_zero (S := S2000x128) block_origin, View.ld_unit_zero (S := S2000x1) block_origin,
    View.ld_unit_zero (S := S1x128) block_origin]
  funext j
  obtain ⟨p, q, rfl⟩ : ∃ (p : Fin 2000) (q : Fin 128), j = ix2 p q := ⟨j 0, j 1, eq_ix2 j⟩
  have ht : t.val < 50 := Nat.lt_of_lt_of_eq t.isLt N_3
  obtain ⟨r, hr⟩ : ∃ r : Fin 100000, r.val = t.val * 2000 + p.val := ⟨⟨t.val * 2000 + p.val, by omega⟩, rfl⟩
  have hA : iblk3 V c 0 t (ix2 p q) = V c main_v58 (ix2 r q) := by
    show V c main_v58 (((cfg3.win 0).blk t).view.emb (ix2 p q)) = _
    rw [rows3_emb t p q r hr]
  have hD : iblk3 V c 1 t (ix2 p (0 : Fin 1)) = V c main_v17 (ix2 r (0 : Fin 1)) := by
    show V c main_v17 (((cfg3.win 1).blk t).view.emb (ix2 p (0 : Fin 1))) = _
    rw [scale3_emb t p r hr]
  have hB : iblk3 V c 2 t (ix2 (0 : Fin 1) q) = V c main_v59 (ix2 (0 : Fin 1) q) := by
    show V c main_v59 (((cfg3.win 2).blk t).view.emb (ix2 (0 : Fin 1) q)) = _
    rw [bias3_emb t q]
  show k3_pay1 (F := Ideal) (iblk3 V c 0 t) (iblk3 V c 1 t) (iblk3 V c 2 t) (ix2 p q)
    = Cert.Spec.postRelu (V c main_v58) (V c main_v17) (V c main_v59) (((cfg3.win 3).blk t).view.emb (ix2 p q))
  refine (pay_post3 (iblk3 V c 0 t) (iblk3 V c 1 t) (iblk3 V c 2 t) p q).trans ?_
  rw [out3_emb t p q r hr, hA, hD, hB]
  rfl

/-- An index of the output array is in point `t`'s block iff each coordinate is in the block's range on its axis. -/
theorem mem_out3 (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v60).slice (win3_3.rect t)).set ↔ _
  rw [View.set_slice_whole, Rect.mem_set_unit]
  exact Iff.rfl

/-- Every row is written: row `n` by point `n / 2000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, by rw [show cfg3.N = 50 from N_3]; omega⟩, rfl⟩
  obtain ⟨-, -, -, -, -, -, e30, e31⟩ := blocks3 t
  refine ⟨t, flush3_3 t, ?_⟩
  rw [mem_out3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 128 ≤ (i 1).val ∧ (i 1).val < win3_3.index t (1 : Fin 2) * 128 + 128
    omega

/-- The region's output array after its run: the epilogue of the arrays as the region finds them. -/
theorem arr3 (c : Dev nD) :
    (dat3 (F := Ideal) V c).arrAt 3 cfg3.N = Cert.Spec.postRelu (V c main_v58) (V c main_v17) (V c main_v59) :=
  (dat3 (F := Ideal) V c).arrAt_eq_of_cover 3 (Cert.Spec.postRelu (V c main_v58) (V c main_v17) (V c main_v59))
    (fun t _ => flushed3 V c t) cover3

/-! ## Region 5: the third layer's epilogue -/

/-- The printed index maps, decided over the grid: at point `t` the row block, the scale block and the output block
    are all block `t` of their arrays' rows, and the bias row is its one block. -/
theorem blocks5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Entry `(p, q)` of point `t`'s row block sits in the array at row `2000 t + p`. -/
theorem rows5_emb (t : Fin cfg5.N) (p : Fin 2000) (q : Fin 128) (r : Fin 100000) (hr : r.val = t.val * 2000 + p.val) :
    ((cfg5.win 0).blk t).view.emb (ix2 p q) = ix2 r q := by
  obtain ⟨e00, e01, -⟩ := blocks5 t
  funext a; apply Fin.ext
  match a with
  | ⟨0, _⟩ => show win5_0.index t (0 : Fin 2) * 2000 + 1 * p.val = r.val; omega
  | ⟨1, _⟩ => show win5_0.index t (1 : Fin 2) * 128 + 1 * q.val = q.val; omega

/-- Entry `p` of point `t`'s scale block sits in the scale column at row `2000 t + p`. -/
theorem scale5_emb (t : Fin cfg5.N) (p : Fin 2000) (r : Fin 100000) (hr : r.val = t.val * 2000 + p.val) :
    ((cfg5.win 1).blk t).view.emb (ix2 p (0 : Fin 1)) = ix2 r (0 : Fin 1) := by
  obtain ⟨-, -, e10, e11, -⟩ := blocks5 t
  funext a; apply Fin.ext
  match a with
  | ⟨0, _⟩ => show win5_1.index t (0 : Fin 2) * 2000 + 1 * p.val = r.val; omega
  | ⟨1, _⟩ => show win5_1.index t (1 : Fin 2) * 1 + 1 * 0 = 0; omega

/-- The bias row's one block is the bias row. -/
theorem bias5_emb (t : Fin cfg5.N) (q : Fin 128) :
    ((cfg5.win 2).blk t).view.emb (ix2 (0 : Fin 1) q) = ix2 (0 : Fin 1) q := by
  obtain ⟨-, -, -, -, e20, e21, -⟩ := blocks5 t
  funext a; apply Fin.ext
  match a with
  | ⟨0, _⟩ => show win5_2.index t (0 : Fin 2) * 1 + 1 * 0 = 0; omega
  | ⟨1, _⟩ => show win5_2.index t (1 : Fin 2) * 128 + 1 * q.val = q.val; omega

/-- Entry `(p, q)` of point `t`'s output block sits in the output array at row `2000 t + p`. -/
theorem out5_emb (t : Fin cfg5.N) (p : Fin 2000) (q : Fin 128) (r : Fin 100000) (hr : r.val = t.val * 2000 + p.val) :
    ((cfg5.win 3).blk t).view.emb (ix2 p q) = ix2 r q := by
  obtain ⟨-, -, -, -, -, -, e30, e31⟩ := blocks5 t
  funext a; apply Fin.ext
  match a with
  | ⟨0, _⟩ => show win5_3.index t (0 : Fin 2) * 2000 + 1 * p.val = r.val; omega
  | ⟨1, _⟩ => show win5_3.index t (1 : Fin 2) * 128 + 1 * q.val = q.val; omega

/-- What point `t` writes back is block `t` of the epilogue of the arrays as the region finds them. -/
theorem flushed5 (c : Dev nD) (t : Fin cfg5.N) :
    (dat5 (F := Ideal) V c).flushed 3 t
      = ((cfg5.win 3).blk t).view.read (Elt Ideal) (Cert.Spec.post (V c main_v72) (V c main_v17) (V c main_v73)) := by
  show (cfg5.win 3).cut (grid5.coords t) ((dat5 V c).after 3 t) = _
  rw [after5_3]
  unfold out5_3
  rw [View.canon_unit_zero block_origin]
  simp only [View.ld_unit_zero (S := S2000x128) block_origin, View.ld_unit_zero (S := S2000x1) block_origin,
    View.ld_unit_zero (S := S1x128) block_origin]
  funext j
  obtain ⟨p, q, rfl⟩ : ∃ (p : Fin 2000) (q : Fin 128), j = ix2 p q := ⟨j 0, j 1, eq_ix2 j⟩
  have ht : t.val < 50 := Nat.lt_of_lt_of_eq t.isLt N_5
  obtain ⟨r, hr⟩ : ∃ r : Fin 100000, r.val = t.val * 2000 + p.val := ⟨⟨t.val * 2000 + p.val, by omega⟩, rfl⟩
  have hA : iblk5 V c 0 t (ix2 p q) = V c main_v72 (ix2 r q) := by
    show V c main_v72 (((cfg5.win 0).blk t).view.emb (ix2 p q)) = _
    rw [rows5_emb t p q r hr]
  have hD : iblk5 V c 1 t (ix2 p (0 : Fin 1)) = V c main_v17 (ix2 r (0 : Fin 1)) := by
    show V c main_v17 (((cfg5.win 1).blk t).view.emb (ix2 p (0 : Fin 1))) = _
    rw [scale5_emb t p r hr]
  have hB : iblk5 V c 2 t (ix2 (0 : Fin 1) q) = V c main_v73 (ix2 (0 : Fin 1) q) := by
    show V c main_v73 (((cfg5.win 2).blk t).view.emb (ix2 (0 : Fin 1) q)) = _
    rw [bias5_emb t q]
  show k5_pay1 (F := Ideal) (iblk5 V c 0 t) (iblk5 V c 1 t) (iblk5 V c 2 t) (ix2 p q)
    = Cert.Spec.post (V c main_v72) (V c main_v17) (V c main_v73) (((cfg5.win 3).blk t).view.emb (ix2 p q))
  refine (pay_post5 (iblk5 V c 0 t) (iblk5 V c 1 t) (iblk5 V c 2 t) p q).trans ?_
  rw [out5_emb t p q r hr, hA, hD, hB]
  rfl

/-- An index of the output array is in point `t`'s block iff each coordinate is in the block's range on its axis. -/
theorem mem_out5 (t : Fin cfg5.N) (i : S100000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v74).slice (win5_3.rect t)).set ↔ _
  rw [View.set_slice_whole, Rect.mem_set_unit]
  exact Iff.rfl

/-- Every row is written: row `n` by point `n / 2000`. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ : ∃ t : Fin cfg5.N, t.val = (i 0).val / 2000 :=
    ⟨⟨(i 0).val / 2000, by rw [show cfg5.N = 50 from N_5]; omega⟩, rfl⟩
  obtain ⟨-, -, -, -, -, -, e30, e31⟩ := blocks5 t
  refine ⟨t, flush5_3 t, ?_⟩
  rw [mem_out5]
  intro a
  match a with
  | ⟨0, _⟩ =>
    show win5_3.index t (0 : Fin 2) * 2000 ≤ (i 0).val ∧ (i 0).val < win5_3.index t (0 : Fin 2) * 2000 + 2000
    omega
  | ⟨1, _⟩ =>
    show win5_3.index t (1 : Fin 2) * 128 ≤ (i 1).val ∧ (i 1).val < win5_3.index t (1 : Fin 2) * 128 + 128
    omega

/-- The region's output array after its run: the epilogue of the arrays as the region finds them. -/
theorem arr5 (c : Dev nD) :
    (dat5 (F := Ideal) V c).arrAt 3 cfg5.N = Cert.Spec.post (V c main_v72) (V c main_v17) (V c main_v73) :=
  (dat5 (F := Ideal) V c).arrAt_eq_of_cover 3 (Cert.Spec.post (V c main_v72) (V c main_v17) (V c main_v73))
    (fun t _ => flushed5 V c t) cover5

end Regions

end Cert.KernelIdeal.RegionValue

end
-- ==== Proof.KValue.lean ====
/-
  The kernel program's result is the specification's three layers.

  The six regions' values (Proof/RegionPre.lean, Proof/RegionPost.lean) close the hypotheses of the fold
  (Proof/KChain.lean), whose last boundary holds the three layers composed in the kernel's arrangement; each layer
  is the specification's (Proof/KLayer.lean). With the run that names every buffer (Proof/KRun.lean): every weakly
  fair execution of the kernel program ends with the result array at `Cert.Spec.gcn` of the argument arrays, the
  arguments unchanged.
-/
import proofs.«117999_j30562987278370_2_alg».proof.Proof.KRun
import proofs.«117999_j30562987278370_2_alg».proof.Proof.KChain
import proofs.«117999_j30562987278370_2_alg».proof.Proof.KLayer
import proofs.«117999_j30562987278370_2_alg».proof.Proof.RegionPre
import proofs.«117999_j30562987278370_2_alg».proof.Proof.RegionPost

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem

/-- What the six pallas_calls compute. -/
theorem regions : Cert.KernelIdeal.KChain.Regions :=
  ⟨Cert.KernelIdeal.RegionValue.arr0, Cert.KernelIdeal.RegionValue.arr1, Cert.KernelIdeal.RegionValue.arr2,
   Cert.KernelIdeal.RegionValue.arr3, Cert.KernelIdeal.RegionValue.arr4, Cert.KernelIdeal.RegionValue.arr5⟩

variable (m : (ℓ : Loc nD τ sig) → Buf (Elt Ideal) ℓ) (ρ : Dev nD → PrngReg) (c : Dev nD)

/-- The kernel program's result array as a function of its argument arrays: the specification's three layers over
    the program's own source entries, destination entries and scale. -/
def result : Buf (Elt Ideal) ((c.tc : Thread nD τ).loc main_v74) :=
  Cert.Spec.gcn (srcK (m ((c : Thread nD τ).loc main_arg1))) (dstK (m ((c : Thread nD τ).loc main_arg1)))
    (dsK (F := Ideal) (m ((c : Thread nD τ).loc main_arg1)))
    (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The last boundary's contents of the result buffer are that function of the arguments. -/
theorem result_eq : W14 m ρ c (Proc.devRef .tc main_v74) = result m c :=
  (Cert.KernelIdeal.KChain.W14_v74 regions m ρ c).trans (by
    unfold result Cert.Spec.gcn
    rw [Cert.KernelIdeal.KLayer.layer_relu_eq, Cert.KernelIdeal.KLayer.layer_relu_eq, Cert.KernelIdeal.KLayer.layer_eq])

/-- THE KERNEL PROGRAM'S RUN at the extended reals: it terminates, nothing faulting, with the result array at
    `result` and the arguments unchanged. -/
theorem run : θ_run defs (onTc (τ := τ) (main (F := Ideal))) ⟨m, fun _ => 0, ρ⟩ (fun r => ∀ c : Dev nD,
      r.2.mem ((c.tc : Thread nD τ).loc main_v74) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.KRun.run_value (F := Ideal) m ρ)

end Cert.KernelIdeal.KValue

end
-- ==== Proof.RefValueLayer.lean ====
/-
  One graph convolution of the reference program, as a function of its activation, weight and bias.

  The reference runs the same thirty-odd operations three times: a product with the weight, a gather of the
  product's rows at the wrapped source entries, a scaling of every gathered row by the product of the two
  inverse-square-root degrees the edge's wrapped ends name, an accumulating scatter of the scaled rows into the
  rows the raw destination entries name, and the bias added to every row. This module spells that sequence once
  over the program's own operations (refLayer) and reads it at an index (n, j):

      refLayer src dst ds a W b (n, j)
        = (∑ over edges e landing on n of (a · W)[row(src e), j] · (ds[row(src e)] · ds[row(dst e)])) + b[j],

  which is the layer of the specification.
-/
import proofs.«117999_j30562987278370_2_alg».proof.Proof.RefRead
import proofs.«117999_j30562987278370_2_alg».proof.Proof.Spec
import proofs.«117999_j30562987278370_2_alg».proof.Proof.LibRows
import proofs.«117999_j30562987278370_2_alg».proof.Proof.LibGather1

noncomputable section

open scoped BigOperators

namespace Cert.ReferenceIdeal.RefValue

open Cert.ReferenceIdeal Cert.ReferenceIdeal.Gen Cert.ReferenceIdeal.Read Idealize.ShloMosaic Idealize.ShloMosaic.ValueIdx

/-- The edge entries after the wrap of a negative entry (v < 0 ↦ v + 100000), as a column [700000, 1] of row
    numbers: what every gather of the layer takes its rows by. -/
def wrapCol (ent : IVec S700000 32) : IVec S700000x1 32 :=
  broadcastInDim S700000x1 ![0] bcast_S700000_S700000x1_0
    (select (cmpi .slt ent (broadcastInDim S700000 ![] bcast_S_S700000 (constantI S_ 32 0#32)))
      (addi ent (broadcastInDim S700000 ![] bcast_S_S700000 (constantI S_ 32 100000#32))) ent)

/-- The raw edge entries as a column [700000, 1]: what the scatter takes its rows by. -/
def rawCol (ent : IVec S700000 32) : IVec S700000x1 32 :=
  broadcastInDim S700000x1 ![0] bcast_S700000_S700000x1_0 ent

/-- One graph convolution without its activation, over the program's own operations. -/
def refLayer (src dst : IVec S700000 32) (ds : FVec Ideal S100000 .f32) (a : FVec Ideal S100000x128 .f32)
    (W : FVec Ideal S128x128 .f32) (b : FVec Ideal S128 .f32) : FVec Ideal S100000x128 .f32 :=
  addf
    (Host.scatterAdd scatter_S100000x128_S700000x1_S700000x128_1_0_0_1
      (broadcastInDim S100000x128 ![] bcast_S_S100000x128 (constant (F := Ideal) S_ .f32 0x00000000#32))
      (rawCol dst)
      (mulf
        (Host.gather gather_S100000x128_S700000x1_S700000x128_1_0_n_n_0_1_1128
          (Host.dotGeneral dot_S100000x128_S128x128_S100000x128_1_0_0_1_n_n none a W) (wrapCol src))
        (broadcastInDim S700000x128 ![0, 1] bcast_S700000x1_S700000x128_0_1
          (broadcastInDim S700000x1 ![0] bcast_S700000_S700000x1_0
            (mulf (Host.gather gather_S100000_S700000x1_S700000_n_0_n_n_0_1_1 ds (wrapCol src))
              (Host.gather gather_S100000_S700000x1_S700000_n_0_n_n_0_1_1 ds (wrapCol dst)))))))
    (broadcastInDim S100000x128 ![0, 1] bcast_S1x128_S100000x128_0_1 (broadcastInDim S1x128 ![1] bcast_S128_S1x128_1 b))

/-! ## The index columns read at an entry -/

/-- A vector [700000] laid as a column [700000, 1], read at (e, 0): entry e. -/
theorem col_apply {α : Type} (x : S700000.Idx → α) (e : Fin 700000) :
    broadcastInDim S700000x1 ![0] bcast_S700000_S700000x1_0 x (ix2 e (0 : Fin 1)) = x (ix1 e) :=
  broadcastInDim_apply _ bcast_S700000_S700000x1_0 x (ix2 e (0 : Fin 1)) (ix1 e) (fun a => match a with
    | ⟨0, _⟩ => by show e.val = if (700000 : Nat) = 1 then 0 else e.val; rw [if_neg (by decide)])

/-- The wrapped column at entry e is the specification's wrap of entry e. -/
theorem wrapCol_apply (ent : IVec S700000 32) (e : Fin 700000) :
    wrapCol ent (ix2 e (0 : Fin 1)) = Cert.Spec.wrapAt 100000#32 (ent (ix1 e)) := by
  unfold wrapCol
  exact col_apply _ e

/-- The row a gather reads for entry e of the wrapped column is the specification's row of edge e. -/
theorem rowOf_wrapCol (ent : IVec S700000 32) (e : Fin 700000) :
    Cert.Lib.rowOf (N := 100000) (by decide) (wrapCol ent) e = Cert.Spec.rowOfEdge ent e := by
  refine Fin.ext ?_
  show min (wrapCol ent (ix2 e (0 : Fin 1))).toInt.toNat (100000 - 1)
    = min (Cert.Spec.wrapAt 100000#32 (ent (ix1 e))).toInt.toNat (100000 - 1)
  rw [wrapCol_apply]

/-- The updates landing on row n by the raw destination column are the specification's edges landing on n. -/
theorem landing_rawCol (dst : IVec S700000 32) (n : Fin 100000) :
    Cert.Lib.landing (rawCol dst) n = Cert.Spec.lands dst n := by
  unfold Cert.Lib.landing Cert.Spec.lands rawCol
  refine Finset.filter_congr fun e _ => ?_
  rw [col_apply]

/-! ## The layer's pieces read at an index -/

/-- The bias, laid as a row [1, 128] and repeated down the 100000 rows, at (n, j): b[j]. -/
theorem bias_apply (b : FVec Ideal S128 .f32) (n : Fin 100000) (j : Fin 128) :
    broadcastInDim S100000x128 ![0, 1] bcast_S1x128_S100000x128_0_1 (broadcastInDim S1x128 ![1] bcast_S128_S1x128_1 b)
      (ix2 n j) = b (ix1 j) := by
  refine (broadcastInDim_apply _ bcast_S1x128_S100000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A per-edge factor [700000], laid as a column and repeated across the 128 features, at (e, j): the factor of e. -/
theorem scale_apply (x : FVec Ideal S700000 .f32) (e : Fin 700000) (j : Fin 128) :
    broadcastInDim S700000x128 ![0, 1] bcast_S700000x1_S700000x128_0_1
      (broadcastInDim S700000x1 ![0] bcast_S700000_S700000x1_0 x) (ix2 e j) = x (ix1 e) := by
  refine (broadcastInDim_apply _ bcast_S700000x1_S700000x128_0_1 _ (ix2 e j) (ix2 e (0 : Fin 1)) (fun a => match a with
    | ⟨0, _⟩ => by show e.val = if (700000 : Nat) = 1 then 0 else e.val; rw [if_neg (by decide)]
    | ⟨1, _⟩ => by show 0 = if (1 : Nat) = 1 then 0 else j.val; rw [if_pos rfl])).trans ?_
  exact col_apply x e

/-- The product with the weight at (r, j): the specification's (a · W)[r, j]. -/
theorem dot_apply (a : FVec Ideal S100000x128 .f32) (W : FVec Ideal S128x128 .f32) (r : Fin 100000) (j : Fin 128) :
    Host.dotGeneral dot_S100000x128_S128x128_S100000x128_1_0_0_1_n_n none a W (ix2 r j) = Cert.Spec.mm a W r j := by
  refine (val_main_v17_apply a W (ix2 r j)).trans ?_
  unfold Cert.Spec.mm
  refine Finset.sum_congr rfl fun k _ => ?_
  have el : lidx_main_v17 (ix2 r j) k = ix2 r k := funext fun d => match d with
    | ⟨0, _⟩ => rfl
    | ⟨1, _⟩ => rfl
  have er : ridx_main_v17 (ix2 r j) k = ix2 k j := funext fun d => match d with
    | ⟨0, _⟩ => rfl
    | ⟨1, _⟩ => rfl
  rw [el, er]

/-- The scaled message of edge e at feature j: the row of (a · W) the wrapped source names, times the two
    inverse-square-root degrees the edge's wrapped ends name. -/
theorem msg_apply (src dst : IVec S700000 32) (ds : FVec Ideal S100000 .f32) (a : FVec Ideal S100000x128 .f32)
    (W : FVec Ideal S128x128 .f32) (e : Fin 700000) (j : Fin 128) :
    mulf
        (Host.gather gather_S100000x128_S700000x1_S700000x128_1_0_n_n_0_1_1128
          (Host.dotGeneral dot_S100000x128_S128x128_S100000x128_1_0_0_1_n_n none a W) (wrapCol src))
        (broadcastInDim S700000x128 ![0, 1] bcast_S700000x1_S700000x128_0_1
          (broadcastInDim S700000x1 ![0] bcast_S700000_S700000x1_0
            (mulf (Host.gather gather_S100000_S700000x1_S700000_n_0_n_n_0_1_1 ds (wrapCol src))
              (Host.gather gather_S100000_S700000x1_S700000_n_0_n_n_0_1_1 ds (wrapCol dst))))) (ix2 e j)
      = Cert.Spec.mm a W (Cert.Spec.rowOfEdge src e) j
          * (ds (ix1 (Cert.Spec.rowOfEdge src e)) * ds (ix1 (Cert.Spec.rowOfEdge dst e))) := by
  rw [mulf_apply, scale_apply, mulf_apply]
  have hg : Host.gather gather_S100000x128_S700000x1_S700000x128_1_0_n_n_0_1_1128
      (Host.dotGeneral dot_S100000x128_S128x128_S100000x128_1_0_0_1_n_n none a W) (wrapCol src) (ix2 e j)
      = Cert.Spec.mm a W (Cert.Spec.rowOfEdge src e) j := by
    refine (Cert.Lib.gather_rows_apply (N := 100000) (E := 700000) (D := 128) (by decide)
      gather_S100000x128_S700000x1_S700000x128_1_0_n_n_0_1_1128_wf _ (wrapCol src) e j).trans ?_
    rw [rowOf_wrapCol]
    exact dot_apply a W _ j
  have hs : ∀ ent : IVec S700000 32, Host.gather gather_S100000_S700000x1_S700000_n_0_n_n_0_1_1 ds (wrapCol ent) (ix1 e)
      = ds (ix1 (Cert.Spec.rowOfEdge ent e)) := by
    intro ent
    refine (Cert.Lib.gather_vec_apply (N := 100000) (E := 700000) (by decide)
      gather_S100000_S700000x1_S700000_n_0_n_n_0_1_1_wf ds (wrapCol ent) e).trans ?_
    rw [rowOf_wrapCol]
  rw [hg, hs src, hs dst]

/-- The accumulating scatter of the layer at (n, j): the operand's entry plus feature j of every update row whose
    entry of the column, read signed, is n. -/
theorem scatter_apply (x : FVec Ideal S100000x128 .f32) (idx : IVec S700000x1 32) (upd : FVec Ideal S700000x128 .f32)
    (n : Fin 100000) (j : Fin 128) :
    Host.scatterAdd scatter_S100000x128_S700000x1_S700000x128_1_0_0_1 x idx upd (ix2 n j)
      = x (ix2 n j) + ∑ e ∈ Cert.Lib.landing idx n, upd (ix2 e j) :=
  Cert.Lib.scatterAdd_rows_apply scatter_S100000x128_S700000x1_S700000x128_1_0_0_1_wf x idx upd n j

/-- The array the scatter accumulates into is zero everywhere. -/
theorem zeros_apply (i : S100000x128.Idx) :
    broadcastInDim S100000x128 ![] bcast_S_S100000x128 (constant (F := Ideal) S_ .f32 0x00000000#32) i = 0 :=
  (broadcastInDim_apply _ bcast_S_S100000x128 _ i ix0 (fun a => a.elim0)).trans
    ((constant_apply (s := S_) (φ := .f32) 0x00000000#32 ix0).trans Ideal.ofBits_zero_f32)

/-- The layer of the program at (n, j). -/
theorem refLayer_apply (src dst : IVec S700000 32) (ds : FVec Ideal S100000 .f32) (a : FVec Ideal S100000x128 .f32)
    (W : FVec Ideal S128x128 .f32) (b : FVec Ideal S128 .f32) (n : Fin 100000) (j : Fin 128) :
    refLayer src dst ds a W b (ix2 n j) = Cert.Spec.layerAt src dst ds a W b n j := by
  unfold refLayer Cert.Spec.layerAt
  rw [addf_apply, bias_apply, scatter_apply, zeros_apply, zero_add, landing_rawCol]
  refine congrArg (fun t : EReal => t + b (ix1 j)) ?_
  exact Finset.sum_congr rfl fun e _ => msg_apply src dst ds a W e j

/-- THE LAYER OF THE PROGRAM IS THE LAYER OF THE SPECIFICATION. -/
theorem refLayer_eq (src dst : IVec S700000 32) (ds : FVec Ideal S100000 .f32) (a : FVec Ideal S100000x128 .f32)
    (W : FVec Ideal S128x128 .f32) (b : FVec Ideal S128 .f32) :
    refLayer src dst ds a W b = Cert.Spec.layer src dst ds a W b := by
  funext i
  obtain ⟨n, j, rfl⟩ : ∃ (n : Fin 100000) (j : Fin 128), i = ix2 n j := ⟨i 0, i 1, eq_ix2 i⟩
  exact refLayer_apply src dst ds a W b n j

end Cert.ReferenceIdeal.RefValue

end
-- ==== Proof.RefValue.lean ====
/-
  The reference program's result is the specification's three-layer graph convolution.

  Each of the three layers of the program is the one sequence of operations of refLayer, on the previous layer's
  rectified result, that layer's weight and that layer's bias; the edge sources, the edge destinations and the
  inverse-square-root degrees are the same three vectors throughout and stay opaque here. The rectifier between
  two layers is max(·, 0) entry by entry. Chaining the three layers and the two rectifiers gives the
  specification's gcn.
-/
import proofs.«117999_j30562987278370_2_alg».proof.Proof.RefValueLayer

noncomputable section

namespace Cert.ReferenceIdeal.RefValue

open Cert.ReferenceIdeal Cert.ReferenceIdeal.Gen Cert.ReferenceIdeal.Read Idealize.ShloMosaic Idealize.ShloMosaic.ValueIdx

/-- The rectifier of the program, a maximum with an array of zeros, is max(·, 0) entry by entry. -/
theorem relu_eq (y : FVec Ideal S100000x128 .f32) :
    maximumf y (broadcastInDim S100000x128 ![] bcast_S_S100000x128 (constant (F := Ideal) S_ .f32 0x00000000#32))
      = Cert.Spec.relu y := by
  funext i
  show max (y i) (Ideal.ofBits .f32 0x00000000#32) = max (y i) 0
  rw [Ideal.ofBits_zero_f32]

/-! ## Each stage of the program is the layer on the stage before it -/

/-- The first layer: on the input features, the first weight and the first bias. -/
theorem stage1 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) :
    val_main_v48 (F := Ideal) x0 x1 x2 x3
      = refLayer (val_main_v3 (F := Ideal) x1) (val_main_v6 (F := Ideal) x1) (val_main_v16 (F := Ideal) x1) x0 x2 x3 := rfl

/-- The first rectifier. -/
theorem relu1 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) :
    val_main_v49 (F := Ideal) x0 x1 x2 x3 = Cert.Spec.relu (val_main_v48 (F := Ideal) x0 x1 x2 x3) :=
  relu_eq _

/-- The second layer: on the first layer's rectified result. -/
theorem stage2 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v81 (F := Ideal) x0 x1 x2 x3 x4 x5
      = refLayer (val_main_v3 (F := Ideal) x1) (val_main_v6 (F := Ideal) x1) (val_main_v16 (F := Ideal) x1)
          (val_main_v49 (F := Ideal) x0 x1 x2 x3) x4 x5 := rfl

/-- The second rectifier. -/
theorem relu2 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v82 (F := Ideal) x0 x1 x2 x3 x4 x5 = Cert.Spec.relu (val_main_v81 (F := Ideal) x0 x1 x2 x3 x4 x5) :=
  relu_eq _

/-- The third layer: on the second layer's rectified result. -/
theorem stage3 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v114 (F := Ideal) x0 x1 x2 x3 x4 x5 x6 x7
      = refLayer (val_main_v3 (F := Ideal) x1) (val_main_v6 (F := Ideal) x1) (val_main_v16 (F := Ideal) x1)
          (val_main_v82 (F := Ideal) x0 x1 x2 x3 x4 x5) x6 x7 := rfl

/-- THE REFERENCE'S RESULT IS THE SPECIFICATION'S THREE-LAYER CONVOLUTION, over the program's own edge sources,
    edge destinations and inverse-square-root degrees. -/
theorem ref_val_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v114 (F := Ideal) x0 x1 x2 x3 x4 x5 x6 x7
      = Cert.Spec.gcn (val_main_v3 (F := Ideal) x1) (val_main_v6 (F := Ideal) x1) (val_main_v16 (F := Ideal) x1)
          x0 x2 x3 x4 x5 x6 x7 := by
  rw [stage3, refLayer_eq, relu2, stage2, refLayer_eq, relu1, stage1, refLayer_eq]
  rfl

end Cert.ReferenceIdeal.RefValue

end
-- ==== Proof.lean ====
/-
  A three-layer graph convolution over 100000 nodes, 700000 edges and 128 features: a kernel program of six
  pallas_calls among stretches of host operations against a plain reference, equal as extended reals.

  Both programs take the same edge list (the given edges followed by one self loop per node) and the same scale
  `ds = deg > 0 ? rsqrt (max deg 1) : 0`. The reference computes, per layer,
      out[n, j] = (∑ over edges e landing on n of (a · W)[src e, j] · (ds[src e] · ds[dst e])) + b[j];
  the kernel factors the edge weight: it scales the rows of `a · W` by `ds` in the projection call, aggregates along
  the edge list sorted by destination, and scales the aggregated rows by `ds` again in the epilogue call (with the
  bias, and the rectifier after the first two layers). At the extended reals the two agree: a finite sum does not
  depend on the order of its terms (the argsort is a permutation of the edge positions), and the scale is a finite
  nonnegative real at every node (zero, or the inverse square root of something at least one), which distributes
  over any sum of extended reals. Nothing here needs the inputs to be finite.

  The pieces: Proof/Spec.lean the mathematics; Proof/Law.lean the law that joins the two arrangements;
  Proof/RegionPre.lean and Proof/RegionPost.lean the six pallas_calls as whole-array functions; Proof/KHost.lean,
  Proof/KChain.lean, Proof/KLayer.lean, Proof/KRun.lean, Proof/KValue.lean the kernel program's run and its result;
  Proof/RefValueLayer.lean, Proof/RefValue.lean the reference's result. The idealized kernel is the kernel's own
  text read at the extended reals (the idealization rewrote nothing), so `preserves` has nothing to state.
-/
import proofs.«117999_j30562987278370_2_alg».proof.Defs
import proofs.«117999_j30562987278370_2_alg».proof.Proof.Gen.Kernel
import proofs.«117999_j30562987278370_2_alg».proof.Proof.Gen.Kernel.Skeleton
import proofs.«117999_j30562987278370_2_alg».proof.Proof.Gen.Kernel.Launch
import proofs.«117999_j30562987278370_2_alg».proof.Proof.Gen.Kernel.Points
import proofs.«117999_j30562987278370_2_alg».proof.Proof.Gen.Kernel.Frame
import proofs.«117999_j30562987278370_2_alg».proof.Proof.Gen.KernelIdeal
import proofs.«117999_j30562987278370_2_alg».proof.Proof.Gen.KernelIdeal.Skeleton
import proofs.«117999_j30562987278370_2_alg».proof.Proof.Gen.KernelIdeal.Launch
import proofs.«117999_j30562987278370_2_alg».proof.Proof.Gen.KernelIdeal.Points
import proofs.«117999_j30562987278370_2_alg».proof.Proof.Gen.KernelIdeal.Frame
import proofs.«117999_j30562987278370_2_alg».proof.Proof.Gen.ReferenceIdeal
import proofs.«117999_j30562987278370_2_alg».proof.Proof.RefRun
import proofs.«117999_j30562987278370_2_alg».proof.Proof.RefRead
import proofs.«117999_j30562987278370_2_alg».proof.Proof.Gen.Pre_finite_inputs
import proofs.«117999_j30562987278370_2_alg».proof.Proof.KValue
import proofs.«117999_j30562987278370_2_alg».proof.Proof.RefValue
import Idealize.ShloMosaic.Adequacy
import Idealize.ShloMosaic.Init

set_option maxRecDepth 16384

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs derive the same source entries, destination entries and scale from the edge array: the same
    operations, spelt in each program's own names. -/
theorem src_eq (x : IVec Cert.KernelIdeal.S2x600000 32) :
    Cert.ReferenceIdeal.Read.val_main_v3 (F := Ideal) x = Cert.KernelIdeal.KHost.srcK x := rfl
theorem dst_eq (x : IVec Cert.KernelIdeal.S2x600000 32) :
    Cert.ReferenceIdeal.Read.val_main_v6 (F := Ideal) x = Cert.KernelIdeal.KHost.dstK x := rfl
set_option maxHeartbeats 1000000 in
theorem ds_eq (x : IVec Cert.KernelIdeal.S2x600000 32) :
    Cert.ReferenceIdeal.Read.val_main_v16 (F := Ideal) x = Cert.KernelIdeal.KHost.dsK (F := Ideal) x := rfl

/-- At the extended reals, from memories agreeing on the arguments, both programs end with the result array at the
    specification's three layers of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v114_eq, Cert.ReferenceIdeal.RefValue.ref_val_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2, src_eq, dst_eq, ds_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
